-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S144x64 : S_.BroadcastsInDim S144x64 (![] : Fin 0 → Fin S144x64.rank)
  reducesTo_S144x64_S_d0_1 : S144x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S64 .f32) (main_arg9 : FVec F S64x5 .f32) (main_arg10 : FVec F S5 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x5 .f32 := Host.absf main_arg9
  let main_cst_14 : FVec F S_ .f32 := constant S_ .f32 0x7F800000#32
  let main_v40 : FVec F S64x5 .f32 := broadcastInDim S64x5 ![] bcast_S_S64x5 main_cst_14
  let main_v41 : IVec S64x5 1 := cmpf .olt main_v39 main_v40
  let main_c_15 : IVec S_ 1 := constantI S_ 1 1#1
  let main_v42 : IVec S_ 1 := (fun x v => Host.reduce IntOp.andi x v reducesTo_S64x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S144x64 .f32) (main_arg8 : FVec F S64 .f32) (main_arg9 : FVec F S64x5 .f32) (main_arg10 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S144x64 .f32 := Host.absf main_arg7
  let main_cst_10 : FVec F S_ .f32 := constant S_ .f32 0x7F800000#32
  let main_v30 : FVec F S144x64 .f32 := broadcastInDim S144x64 ![] bcast_S_S144x64 main_cst_10
  let main_v31 : IVec S144x64 1 := cmpf .olt main_v29 main_v30
  let main_c_11 : IVec S_ 1 := constantI S_ 1 1#1
  let main_v32 : IVec S_ 1 := (fun x v => Host.reduce IntOp.andi x v reducesTo_S144x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S1600000x16 .f32) (main_arg3 : FVec F S32x64 .f32) (main_arg4 : FVec F S64 .f32) (main_arg5 : FVec F S64x64 .f32) (main_arg6 : FVec F S64 .f32) (main_arg7 : FVec F S144x64 .f32) (main_arg8 : FVec F S64 .f32) (main_arg9 : FVec F S64x5 .f32) (main_arg10 : FVec F S5 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S16x64 : Shape := ⟨2, ![16, 64]⟩
abbrev S1x5 : Shape := ⟨2, ![1, 5]⟩
abbrev S5x1600000 : Shape := ⟨2, ![5, 1600000]⟩
abbrev S12800x64 : Shape := ⟨2, ![12800, 64]⟩
abbrev S12800x16 : Shape := ⟨2, ![12800, 16]⟩
abbrev S5x12800 : Shape := ⟨2, ![5, 12800]⟩
abbrev S6400x64 : Shape := ⟨2, ![6400, 64]⟩
abbrev S6400x16 : Shape := ⟨2, ![6400, 16]⟩
abbrev S6400x5 : Shape := ⟨2, ![6400, 5]⟩
abbrev S5x6400 : Shape := ⟨2, ![5, 6400]⟩
abbrev S1600000x5 : Shape := ⟨2, ![1600000, 5]⟩

abbrev nBuf : Space → Nat
  | .hbm => 117
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S144x64, .f32⟩
  | .hbm, ⟨8, _⟩ => ⟨S64, .f32⟩
  | .hbm, ⟨9, _⟩ => ⟨S64x5, .f32⟩
  | .hbm, ⟨10, _⟩ => ⟨S5, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S100000x64, .bf16⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .bf16⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .bf16⟩
  | .hbm, ⟨109, _⟩ => ⟨S1600000x16, .bf16⟩
  | .hbm, ⟨110, _⟩ => ⟨S64x64, .f32⟩
  | .hbm, ⟨111, _⟩ => ⟨S64x64, .f32⟩
  | .hbm, ⟨112, _⟩ => ⟨S16x64, .f32⟩
  | .hbm, ⟨113, _⟩ => ⟨S1x64, .f32⟩
  | .hbm, ⟨114, _⟩ => ⟨S1x5, .f32⟩
  | .hbm, ⟨115, _⟩ => ⟨S5x1600000, .f32⟩
  | .hbm, ⟨116, _⟩ => ⟨S1600000x5, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S12800x64, .bf16⟩
  | .local _ .vmem, ⟨11, _⟩ => ⟨S12800x64, .bf16⟩
  | .local _ .vmem, ⟨12, _⟩ => ⟨S12800x64, .bf16⟩
  | .local _ .vmem, ⟨13, _⟩ => ⟨S12800x64, .bf16⟩
  | .local _ .vmem, ⟨14, _⟩ => ⟨S12800x16, .bf16⟩
  | .local _ .vmem, ⟨15, _⟩ => ⟨S12800x16, .bf16⟩
  | .local _ .vmem, ⟨16, _⟩ => ⟨S64x64, .f32⟩
  | .local _ .vmem, ⟨17, _⟩ => ⟨S64x64, .f32⟩
  | .local _ .vmem, ⟨18, _⟩ => ⟨S16x64, .f32⟩
  | .local _ .vmem, ⟨19, _⟩ => ⟨S1x64, .f32⟩
  | .local _ .vmem, ⟨20, _⟩ => ⟨S64x5, .f32⟩
  | .local _ .vmem, ⟨21, _⟩ => ⟨S1x5, .f32⟩
  | .local _ .vmem, ⟨22, _⟩ => ⟨S5x12800, .f32⟩
  | .local _ .vmem, ⟨23, _⟩ => ⟨S5x12800, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S12800x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12800x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x5 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5x12800 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  shapeCasts_S5_S1x5 : S5.ShapeCasts S1x5
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  inb_S12800x64_S6400x64_0_0 : ∀ a, (![0, 0] : Fin 2 → Nat) a + S6400x64.size a ≤ S12800x64.size a
  h_S6400x64 : 0 < S6400x64.numel
  shapeCasts_S6400x64_S6400x64 : S6400x64.ShapeCasts S6400x64
  inb_S12800x16_S6400x16_0_0 : ∀ a, (![0, 0] : Fin 2 → Nat) a + S6400x16.size a ≤ S12800x16.size a
  h_S6400x16 : 0 < S6400x16.numel
  shapeCasts_S6400x16_S6400x16 : S6400x16.ShapeCasts S6400x16
  broadcasts_S1x64_S6400x64 : S1x64.Broadcasts S6400x64
  broadcasts_S1x5_S6400x5 : S1x5.Broadcasts S6400x5
  transposes_S6400x5_p1_0_S5x6400 : S6400x5.Transposes [1, 0] S5x6400
  inb_S5x12800_S5x6400_0_0 : ∀ a, (![0, 0] : Fin 2 → Nat) a + S5x6400.size a ≤ S5x12800.size a
  h_S5x6400 : 0 < S5x6400.numel
  inb_S12800x64_S6400x64_6400_0 : ∀ a, (![6400, 0] : Fin 2 → Nat) a + S6400x64.size a ≤ S12800x64.size a
  inb_S12800x16_S6400x16_6400_0 : ∀ a, (![6400, 0] : Fin 2 → Nat) a + S6400x16.size a ≤ S12800x16.size a
  inb_S5x12800_S5x6400_0_6400 : ∀ a, (![0, 6400] : Fin 2 → Nat) a + S5x6400.size a ≤ S5x12800.size a
  transposes_S5x1600000_S1600000x5_1_0 : S5x1600000.Transposes [1, 0] S1600000x5
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  dot_S6400x16_S16x64_S6400x64_1_0_0_1_n_n_wf : DotDims.WF S6400x16 S16x64 S6400x64 [1] [0] [0] [1] [] []
  dot_S6400x64_S64x5_S6400x5_1_0_0_1_n_n_wf : DotDims.WF S6400x64 S64x5 S6400x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x64.size a ≤ S1600000x64.size a
  hwx2_0 : ∀ i : grid2.Coords, EltTy.bits .bf16 = 32 ∨ (Rect.block (s := S1600000x64) S12800x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x64.size a ≤ S1600000x64.size a
  hwx2_1 : ∀ i : grid2.Coords, EltTy.bits .bf16 = 32 ∨ (Rect.block (s := S1600000x64) S12800x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12800x16.size a ≤ S1600000x16.size a
  hwx2_2 : ∀ i : grid2.Coords, EltTy.bits .bf16 = 32 ∨ (Rect.block (s := S1600000x16) S12800x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x5.size a ≤ S64x5.size a
  hwx2_7 : ∀ i : grid2.Coords, EltTy.bits .f32 = 32 ∨ (Rect.block (s := S64x5) S64x5.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x5.size a ≤ S1x5.size a
  hwx2_8 : ∀ i : grid2.Coords, EltTy.bits .f32 = 32 ∨ (Rect.block (s := S1x5) S1x5.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5x12800.size a ≤ S5x1600000.size a
  hwx2_9 : ∀ i : grid2.Coords, EltTy.bits .f32 = 32 ∨ (Rect.block (s := S5x1600000) S5x12800.size (cc2_transform_9 i) (hinb2_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def dot_S6400x64_S64x5_S6400x5_1_0_0_1_n_n : DotDims S6400x64 S64x5 S6400x5 where
  lhsContracting := [1]
  rhsContracting := [0]
  lhsNonContracting := [0]
  rhsNonContracting := [1]
  lhsBatch := []
  rhsBatch := []
  wf := dot_S6400x64_S64x5_S6400x5_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S12800x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S12800x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S12800x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v84) S1x5.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v85) S5x12800.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x144 : Shape := ⟨2, ![1600000, 144]⟩
abbrev S1600000x5 : Shape := ⟨2, ![1600000, 5]⟩
abbrev S1x5 : Shape := ⟨2, ![1, 5]⟩

abbrev nBuf : Space → Nat
  | .hbm => 146
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S32x64, .f32⟩
  | 4 => ⟨S64, .f32⟩
  | 5 => ⟨S64x64, .f32⟩
  | 6 => ⟨S64, .f32⟩
  | 7 => ⟨S144x64, .f32⟩
  | 8 => ⟨S64, .f32⟩
  | 9 => ⟨S64x5, .f32⟩
  | 10 => ⟨S5, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S_, .i32⟩
  | 126 => ⟨S1600000, .i32⟩
  | 127 => ⟨S1600000, .i1⟩
  | _ => ⟨S100000x32, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x144, .f32⟩
  | 7 => ⟨S1600000x64, .f32⟩
  | 8 => ⟨S1x64, .f32⟩
  | 9 => ⟨S1600000x64, .f32⟩
  | 10 => ⟨S1600000x64, .f32⟩
  | 11 => ⟨S_, .f32⟩
  | 12 => ⟨S1600000x64, .f32⟩
  | 13 => ⟨S1600000x64, .f32⟩
  | 14 => ⟨S1600000x5, .f32⟩
  | 15 => ⟨S1x5, .f32⟩
  | 16 => ⟨S1600000x5, .f32⟩
  | 17 => ⟨S1600000x5, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_16 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call1_cst : Ref sig .tc := ⟨.hbm, 139, rfl⟩
abbrev main_call1_v0 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S5_S1x5_1 : S5.BroadcastsInDim S1x5 (![1] : Fin 1 → Fin S1x5.rank)
  bcast_S1x5_S1600000x5_0_1 : S1x5.BroadcastsInDim S1600000x5 (![0, 1] : Fin 2 → Fin S1600000x5.rank)
  dot_S100000x32_S32x64_S100000x64_1_0_0_1_n_n_wf : DotDims.WF S100000x32 S32x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x5_S1600000x5_1_0_0_1_n_n_wf : DotDims.WF S1600000x64 S64x5 S1600000x5 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x5_S1600000x5_1_0_0_1_n_n : DotDims S1600000x64 S64x5 S1600000x5 where
  lhsContracting := [1]
  rhsContracting := [0]
  lhsNonContracting := [0]
  rhsNonContracting := [1]
  lhsBatch := []
  rhsBatch := []
  wf := dot_S1600000x64_S64x5_S1600000x5_1_0_0_1_n_n_wf

class Facts : Prop extends Facts₀ where

variable [Facts]
-- ==== Proof.KRun.lean ====
/-
  The idealized kernel's run with every buffer named.

  @main is eight segments: a stretch of host operations, the first linear layer's pallas_call, two stretches (the neighbour
  aggregation and the ramp), the second linear layer's call, a stretch (aggregation, the two feature gathers, the weight slices),
  the edge classifier's call, and the final transpose. Running them in order from the launch memory, every weakly fair execution
  terminates without a fault, and every buffer that outlives the calls — the result among them — ends holding what the fold of
  the segments over the launch contents says: the host stretches applied as pure functions, each call's output array at what its
  grid points wrote back. The frame claim keeps only the arguments of that; a value claim needs the result too.
-/
import proofs.«104207_j25220047962748_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that is not scoped to a call at the
    last boundary's contents: the fold of the eight segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Named

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«104207_j25220047962748_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Lin0.lean ====
/-
  The first linear layer's pallas_call, as one function of the arrays it finds.

  The call tiles the 100000 rows into ten blocks of 10000; at grid point t the body multiplies rows 10000·t … 10000·t + 9999 of
  its first operand by the whole weight matrix (the bf16 casts are the identity over the extended reals, the matrix unit starts
  from the zero splat) and writes the product back as the same rows of the output. So whatever the two operand arrays hold when
  the call is entered, the output array ends holding x @ W: entry (r, f) is Σ_k x[r, k] · W[k, f].
-/
import proofs.«104207_j25220047962748_2_alg».proof.Proof.Gen.KernelIdeal.Frame
import proofs.«104207_j25220047962748_2_alg».proof.Proof.LibDotInnerHost
import Idealize.ShloMosaic.Lib.Pipeline.Value
import Idealize.ShloMosaic.Lib.ValueIdx
import Idealize.ShloMosaic.Lib.Tactic

set_option maxRecDepth 16384

noncomputable section

open scoped BigOperators

namespace Cert.Bridge

open Idealize.ShloMosaic Idealize.ShloMosaic.ValueIdx

/-- x @ W for a table of 100000 rows: entry (r, f) is Σ_k x[r, k] · W[k, f]. -/
def lin {K : ℕ} (x : (⟨2, ![100000, K]⟩ : Shape).Idx → EReal) (w : (⟨2, ![K, 64]⟩ : Shape).Idx → EReal) :
    (⟨2, ![100000, 64]⟩ : Shape).Idx → EReal :=
  fun i => ∑ k : Fin K, x (ix2 (i 0) k) * w (ix2 k (i 1))

end Cert.Bridge

namespace Cert.KernelIdeal.Hand

open Cert.KernelIdeal Cert.KernelIdeal.Gen Cert.Bridge
open Idealize.ShloMosaic Idealize.ShloMosaic.TcCoe Idealize.ShloMosaic.ValueIdx Idealize.SL.Sem
open Idealize.ShloMosaic.Pipeline (Dat)
open Idealize.ShloMosaic.DotInner

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: row p of the loaded rows against column f of the weights. -/
theorem pay0_apply (x0 : Vec Ideal S10000x32 .f32) (x1 : Vec Ideal S32x64 .f32) (p : Fin 10000) (f : Fin 64) :
    k0_pay1 x0 x1 (ix2 p f) = ∑ k : Fin 32, x0 (ix2 p k) * x1 (ix2 k f) := by
  have hD : Plain dot_S10000x32_S32x64_S10000x64_1_0_0_1_n_n :=
    plain_record dot_S10000x32_S32x64_S10000x64_1_0_0_1_n_n, S10000x32, S32x64
  unfold k0_pay1
  exact hD.matmul_zero none x0 x1 p f

/-- The index maps over the ten grid points: operand rows and output rows move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x @ W, x and W the arrays the call finds. -/
theorem flushed0_eq (c : Dev nD) (t : Fin cfg0.N) :
    (dat0 V c).flushed 2 t = ((cfg0.win 2).blk t).view.read (Elt Ideal)
      (lin (K := 32) (V c main_arg0) (V c main_arg3)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x64) hz]
  obtain ⟨e0, e1, e2, e3, e4, e5⟩ := idx_facts0 t
  funext j
  obtain ⟨p, f, rfl⟩ : ∃ (p : Fin 10000) (f : Fin 64), j = ix2 p f := ⟨j 0, j 1, eq_ix2 j⟩
  show k0_pay1 (iblk0 V c 0 t) (iblk0 V c 1 t) (ix2 p f)
    = lin (K := 32) (V c main_arg0) (V c main_arg3) (((cfg0.win 2).blk t).view.emb (ix2 p f))
  rw [pay0_apply]
  unfold lin
  refine Finset.sum_congr rfl fun k _ => ?_
  have hx : iblk0 V c 0 t (ix2 p k) = V c main_arg0 (ix2 ((((cfg0.win 2).blk t).view.emb (ix2 p f)) 0) k) := by
    unfold iblk0
    rw [View.read_apply]
    show V c main_arg0 _ = V c main_arg0 _
    congr 1
    funext a
    apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 32 + 1 * k.val = k.val; omega
  have hw : iblk0 V c 1 t (ix2 k f) = V c main_arg3 (ix2 k ((((cfg0.win 2).blk t).view.emb (ix2 p f)) 1)) := by
    unfold iblk0
    rw [View.read_apply]
    show V c main_arg3 _ = V c main_arg3 _
    congr 1
    funext a
    apply Fin.ext
    match a with
    | ⟨0, _⟩ => show win0_1.index t (0 : Fin 2) * 32 + 1 * k.val = k.val; omega
    | ⟨1, _⟩ => show win0_1.index t (1 : Fin 2) * 64 + 1 * f.val = win0_2.index t (1 : Fin 2) * 64 + 1 * f.val; omega
  rw [hx, hw]

/-- An index of the output array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row r lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the call: x @ W of the arrays the call finds. -/
theorem final0 (c : Dev nD) : (dat0 V c).arrAt 2 cfg0.N = lin (K := 32) (V c main_arg0) (V c main_arg3) :=
  (dat0 V c).arrAt_eq_of_cover 2 _ (fun t _ => flushed0_eq V c t) cover0

end Cert.KernelIdeal.Hand

end
-- ==== Proof.Lin1.lean ====
/-
  The second linear layer's pallas_call, as one function of the arrays it finds.

  It is the first layer's kernel again, now with 64 input features: the call tiles the 100000 rows into ten blocks of 10000; at
  grid point t the body casts the loaded rows to their own shape (which changes nothing), multiplies rows 10000·t … 10000·t + 9999
  of its first operand by the whole 64 × 64 weight matrix (the bf16 casts are the identity over the extended reals, the matrix unit
  starts from the zero splat) and writes the product back as the same rows of the output. So whatever the two operand arrays hold
  when the call is entered, the output array ends holding x @ W: entry (r, f) is Σ_k x[r, k] · W[k, f].
-/
import proofs.«104207_j25220047962748_2_alg».proof.Proof.Gen.KernelIdeal.Frame
import proofs.«104207_j25220047962748_2_alg».proof.Proof.LibDotInnerHost
import proofs.«104207_j25220047962748_2_alg».proof.Proof.Lin0
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen Cert.Bridge
open Idealize.ShloMosaic Idealize.ShloMosaic.TcCoe Idealize.ShloMosaic.ValueIdx Idealize.SL.Sem
open Idealize.ShloMosaic.Pipeline (Dat)
open Idealize.ShloMosaic.DotInner

variable (V : (c : Dev nD) → (b : Ref sig .tc) → Buf (Elt Ideal) ((c : Thread nD τ).loc b))

/-- The body's product at an entry of the block: row p of the loaded rows against column f of the weights. -/
theorem pay1_apply (x0 : Vec Ideal S10000x64 .f32) (x1 : Vec Ideal S64x64 .f32) (p : Fin 10000) (f : Fin 64) :
    k1_pay1 x0 x1 (ix2 p f) = ∑ k : Fin 64, x0 (ix2 p k) * x1 (ix2 k f) := by
  have hD : Plain dot_S10000x64_S64x64_S10000x64_1_0_0_1_n_n :=
    plain_record dot_S10000x64_S64x64_S10000x64_1_0_0_1_n_n, S10000x64, S64x64
  unfold k1_pay1
  rw [shapeCast_self]
  exact hD.matmul_zero none x0 x1 p f

/-- The index maps over the ten grid points: operand rows and output rows move with the point, the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of x @ W, x and W the arrays the call finds. -/
theorem flushed1_eq (c : Dev nD) (t : Fin cfg1.N) :
    (dat1 V c).flushed 2 t = ((cfg1.win 2).blk t).view.read (Elt Ideal)
      (lin (K := 64) (V c main_v46) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts1 t
  funext j
  obtain ⟨p, f, rfl⟩ : ∃ (p : Fin 10000) (f : Fin 64), j = ix2 p f := ⟨j 0, j 1, eq_ix2 j⟩
  show k1_pay1 (iblk1 V c 0 t) (iblk1 V c 1 t) (ix2 p f)
    = lin (K := 64) (V c main_v46) (V c main_arg5) (((cfg1.win 2).blk t).view.emb (ix2 p f))
  rw [pay1_apply]
  unfold lin
  refine Finset.sum_congr rfl fun k _ => ?_
  have hx : iblk1 V c 0 t (ix2 p k) = V c main_v46 (ix2 ((((cfg1.win 2).blk t).view.emb (ix2 p f)) 0) k) := by
    unfold iblk1
    rw [View.read_apply]
    show V c main_v46 _ = V c main_v46 _
    congr 1
    funext a
    apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  have hw : iblk1 V c 1 t (ix2 k f) = V c main_arg5 (ix2 k ((((cfg1.win 2).blk t).view.emb (ix2 p f)) 1)) := by
    unfold iblk1
    rw [View.read_apply]
    show V c main_arg5 _ = V c main_arg5 _
    congr 1
    funext a
    apply Fin.ext
    match a with
    | ⟨0, _⟩ => show win1_1.index t (0 : Fin 2) * 64 + 1 * k.val = k.val; omega
    | ⟨1, _⟩ => show win1_1.index t (1 : Fin 2) * 64 + 1 * f.val = win1_2.index t (1 : Fin 2) * 64 + 1 * f.val; omega
  rw [hx, hw]

/-- An index of the output array is in point t's block iff each coordinate is in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Row r lies in the block of point r / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the call: x @ W of the arrays the call finds. -/
theorem final1 (c : Dev nD) : (dat1 V c).arrAt 2 cfg1.N = lin (K := 64) (V c main_v46) (V c main_arg5) :=
  (dat1 V c).arrAt_eq_of_cover 2 _ (fun t _ => flushed1_eq V c t) cover1

end Cert.KernelIdeal.Hand

end
-- ==== Proof.GraphK.lean ====
/-
  The graph side of the network, as named functions of whole arrays, in the kernel program's own spelling of its shapes and
  dimension numbers.

  The edge list is a [2, 1600000] table of words: row 0 the sources, row 1 the destinations. A self-loop is appended for each of
  the 100000 nodes. The degree of a node is the number of destination words (self-loops included) that name it; the weight of
  an edge is rsqrt(degree at its source) · rsqrt(degree at its destination), sources and destinations read after jnp's move of
  negative words; a graph convolution gathers each edge's source row of the layer's linear image, scales it by the edge's
  weight, adds it into its destination's row, and adds the bias. The edge classifier reads the convolved rows at each edge's
  two ends. Each definition below is one line of that, so that later statements stay small.
-/
import proofs.«104207_j25220047962748_2_alg».proof.KernelIdeal
import Idealize.ShloMosaic.PureOps.Ideal

noncomputable section

namespace Cert.Bridge.K

open Cert.KernelIdeal Cert.KernelIdeal.Facts₀ Cert.KernelIdeal.Facts Idealize.ShloMosaic

variable [Cert.KernelIdeal.Facts]

/-- The source words. -/
def srcW (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
/-- The destination words. -/
def dstW (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000
/-- A word list with the self-loops appended. -/
def withLoops (v : (⟨S1600000, .i32⟩ : BufTy).Contents (Elt Ideal)) : (⟨S1700000, .i32⟩ : BufTy).Contents (Elt Ideal) :=
  concatenate S1700000 0 [⟨S1600000, v⟩, ⟨S100000, iotaInDim S100000 32 0⟩] concatenates_S1600000_S100000_S1700000_d0
/-- jnp's move of negative words (w < 0 ↦ w + 100000) on the long list, as a column of start indices. -/
def startsN (v : (⟨S1700000, .i32⟩ : BufTy).Contents (Elt Ideal)) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)
/-- The same on the edge list proper. -/
def startsE (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The destination words as the scatter's index column (unmoved: a negative word is dropped). -/
def targets (ei : (⟨S2x1600000, .i32⟩ : BufTy).Contents (Elt Ideal)) : (⟨S1700000x1, .i32⟩ : BufTy).Contents (Elt Ideal) :=
  broadcastInDim S1700000x1 ![0] bcast_S1700000_S1700000x1_0 (withLoops (dstW ei))
/-- The degree: ones added at every destination word. -/
def degree (ei : (⟨S2x1600000, .i32⟩ : BufTy).Contents (Elt Ideal)) : (⟨S100000, .f32⟩ : BufTy).Contents (Elt Ideal) :=
  Host.scatterAdd (F := Ideal) (φ := .f32) scatter_S100000_S1700000x1_S1700000_n_0_0_1
    (broadcastInDim S100000 ![] bcast_S_S100000 (constant (F := Ideal) S_ .f32 0x00000000#32))
    (targets ei)
    (broadcastInDim S1700000 ![] bcast_S_S1700000 (constant (F := Ideal) S_ .f32 0x3F800000#32))
/-- The edge weights from a degree table. -/
def weights (dg : (⟨S100000, .f32⟩ : BufTy).Contents (Elt Ideal)) (ei : (⟨S2x1600000, .i32⟩ : BufTy).Contents (Elt Ideal)) :
    (⟨S1700000, .f32⟩ : BufTy).Contents (Elt Ideal) :=
  mulf (F := Ideal) (φ := .f32)
    (Host.gather gather_S100000_S1700000x1_S1700000_n_0_n_n_0_1_1 (Host.rsqrt (F := Ideal) (φ := .f32) dg) (startsN (withLoops (srcW ei))))
    (Host.gather gather_S100000_S1700000x1_S1700000_n_0_n_n_0_1_1 (Host.rsqrt (F := Ideal) (φ := .f32) dg) (startsN (withLoops (dstW ei))))
/-- One graph convolution's aggregation of a linear image, and its bias. -/
def aggregate (ei : (⟨S2x1600000, .i32⟩ : BufTy).Contents (Elt Ideal)) (nrm : (⟨S1700000, .f32⟩ : BufTy).Contents (Elt Ideal))
    (lin : (⟨S100000x64, .f32⟩ : BufTy).Contents (Elt Ideal)) (b : (⟨S64, .f32⟩ : BufTy).Contents (Elt Ideal)) :
    (⟨S100000x64, .f32⟩ : BufTy).Contents (Elt Ideal) :=
  addf (F := Ideal) (φ := .f32)
    (Host.scatterAdd (F := Ideal) (φ := .f32) scatter_S100000x64_S1700000x1_S1700000x64_1_0_0_1
      (broadcastInDim S100000x64 ![] bcast_S_S100000x64 (constant (F := Ideal) S_ .f32 0x00000000#32))
      (targets ei)
      (mulf (F := Ideal) (φ := .f32) (Host.gather gather_S100000x64_S1700000x1_S1700000x64_1_0_n_n_0_1_164 lin (startsN (withLoops (srcW ei))))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))
/-- The ramp on a node table. -/
def ramp (x : (⟨S100000x64, .f32⟩ : BufTy).Contents (Elt Ideal)) : (⟨S100000x64, .f32⟩ : BufTy).Contents (Elt Ideal) :=
  maximumf (F := Ideal) (φ := .f32) x (broadcastInDim S100000x64 ![] bcast_S_S100000x64 (constant (F := Ideal) S_ .f32 0x00000000#32))

end Cert.Bridge.K

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibTransport.lean ====
/-
  A typed reference moves a value between the tensor type it carries and its buffer's own type along the equation between
  the two. Whatever the equation's proof, the moved value is the value: it equals any term of the target type that is
  heterogeneously equal to it — in particular the same term read at the other type when the two types compute to one.
-/
import Idealize.ShloMosaic.Lib.StableHlo

namespace Idealize.ShloMosaic.StableHlo.TRef

variable {sig : RefSig} {Val : EltTy → Type} {T : BufTy}

/-- Contents read through a typed reference are the contents. -/
theorem ofBuf_eq_of_heq (x : TRef sig T) (v : x.ref.ty.Contents Val) (w : T.Contents Val) (h : HEq v w) : x.ofBuf v = w :=
  cast_eq_iff_heq.mpr h

/-- Contents written through a typed reference are the contents. -/
theorem toBuf_eq_of_heq (x : TRef sig T) (w : T.Contents Val) (v : x.ref.ty.Contents Val) (h : HEq w v) : x.toBuf w = v :=
  cast_eq_iff_heq.mpr h

end Idealize.ShloMosaic.StableHlo.TRef
-- ==== Proof.ChainA.lean ====
/-
  The idealized kernel's result, as one function of its arguments.

  The run's last boundary is a fold of eight segments over the launch memory. Read at the result buffer, the fold is: the
  transpose of the edge classifier's score table, whose operands are the convolved node rows gathered at each edge's two ends
  (cast to bf16, which over the extended reals changes nothing), the attributes, the three row blocks of the first classifier
  weight matrix and the biases as rows; the convolved rows are the second convolution of the second linear layer's output, whose
  input is the ramp of the first convolution of the first linear layer's output; both convolutions use the edge weights computed
  once from the degree clamped below at one. Every step below reads one buffer at one boundary: a host stretch as its operations
  applied in order, a call's output array as the function its grid points write back.
-/
import proofs.«104207_j25220047962748_2_alg».proof.Proof.KRun
import proofs.«104207_j25220047962748_2_alg».proof.Proof.Lin0
import proofs.«104207_j25220047962748_2_alg».proof.Proof.Lin1
import proofs.«104207_j25220047962748_2_alg».proof.Proof.GraphK
import proofs.«104207_j25220047962748_2_alg».proof.Proof.LibTypedRefs
import proofs.«104207_j25220047962748_2_alg».proof.Proof.LibTransport
import Idealize.ShloMosaic.Lib.StableHlo.Run
import Idealize.ShloMosaic.PureOps.Ideal

set_option maxRecDepth 16384

noncomputable section

namespace Cert.KernelIdeal.Hand

open Cert.KernelIdeal Cert.KernelIdeal.Gen Cert.Bridge
open Idealize.ShloMosaic Idealize.ShloMosaic.TcCoe Idealize.SL.Sem Idealize.ShloMosaic.StableHlo

/-- The edge weights the kernel uses: from the degree clamped below at one. -/
def nrmK (ei : (⟨S2x1600000, .i32⟩ : BufTy).Contents (Elt Ideal)) : (⟨S1700000, .f32⟩ : BufTy).Contents (Elt Ideal) :=
  K.weights (maximumf (F := Ideal) (φ := .f32) (K.degree ei)
    (broadcastInDim S100000 ![] bcast_S_S100000 (constant (F := Ideal) S_ .f32 0x3F800000#32))) ei

/-- The first convolution's output after the ramp. -/
def h1K (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal)) :
    (⟨S100000x64, .f32⟩ : BufTy).Contents (Elt Ideal) :=
  K.ramp (K.aggregate ei (nrmK ei) (lin (K := 32) x w1) b1)

/-- The second convolution's output. -/
def h2K (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S100000x64, .f32⟩ : BufTy).Contents (Elt Ideal) :=
  K.aggregate ei (nrmK ei) (lin (K := 64) (h1K x ei w1 b1) w2) b2

variable (m : (ℓ : Loc nD τ sig) → Buf (Elt Ideal) ℓ) (ρ : Dev nD → PrngReg) (c : Dev nD)

/-! ## After the first stretch -/

theorem W1_v1 : W1 m ρ c (Proc.devRef .tc main_v1) = K.srcW (m ((c : Thread nD τ).loc main_arg1)) := by
  show StableHlo.after hostOps0 (W0 m ρ c) (Proc.devRef .tc main_v1) = _
  simp only [hostOps0]
  after_results_simp
  rfl
theorem W1_v3 : W1 m ρ c (Proc.devRef .tc main_v3) = K.dstW (m ((c : Thread nD τ).loc main_arg1)) := by
  show StableHlo.after hostOps0 (W0 m ρ c) (Proc.devRef .tc main_v3) = _
  simp only [hostOps0]
  after_results_simp
  rfl
theorem W1_v5 : W1 m ρ c (Proc.devRef .tc main_v5) = K.withLoops (K.srcW (m ((c : Thread nD τ).loc main_arg1))) := by
  show StableHlo.after hostOps0 (W0 m ρ c) (Proc.devRef .tc main_v5) = _
  simp only [hostOps0]
  after_results_simp
  rfl
theorem W1_v6 : W1 m ρ c (Proc.devRef .tc main_v6) = K.withLoops (K.dstW (m ((c : Thread nD τ).loc main_arg1))) := by
  show StableHlo.after hostOps0 (W0 m ρ c) (Proc.devRef .tc main_v6) = _
  simp only [hostOps0]
  after_results_simp
  rfl
theorem W1_v28 : W1 m ρ c (Proc.devRef .tc main_v28) = nrmK (m ((c : Thread nD τ).loc main_arg1)) := by
  show StableHlo.after hostOps0 (W0 m ρ c) (Proc.devRef .tc main_v28) = _
  simp only [hostOps0]
  after_results_simp
  rfl
theorem W1_arg0 : W1 m ρ c (Proc.devRef .tc main_arg0) = m ((c : Thread nD τ).loc main_arg0) := by
  show StableHlo.after hostOps0 (W0 m ρ c) (Proc.devRef .tc main_arg0) = _
  simp only [hostOps0]
  after_results_simp
theorem W1_arg3 : W1 m ρ c (Proc.devRef .tc main_arg3) = m ((c : Thread nD τ).loc main_arg3) := by
  show StableHlo.after hostOps0 (W0 m ρ c) (Proc.devRef .tc main_arg3) = _
  simp only [hostOps0]
  after_results_simp
theorem W1_arg2 : W1 m ρ c (Proc.devRef .tc main_arg2) = m ((c : Thread nD τ).loc main_arg2) := by
  show StableHlo.after hostOps0 (W0 m ρ c) (Proc.devRef .tc main_arg2) = _
  simp only [hostOps0]
  after_results_simp
theorem W1_arg4 : W1 m ρ c (Proc.devRef .tc main_arg4) = m ((c : Thread nD τ).loc main_arg4) := by
  show StableHlo.after hostOps0 (W0 m ρ c) (Proc.devRef .tc main_arg4) = _
  simp only [hostOps0]
  after_results_simp
theorem W1_arg5 : W1 m ρ c (Proc.devRef .tc main_arg5) = m ((c : Thread nD τ).loc main_arg5) := by
  show StableHlo.after hostOps0 (W0 m ρ c) (Proc.devRef .tc main_arg5) = _
  simp only [hostOps0]
  after_results_simp
theorem W1_arg6 : W1 m ρ c (Proc.devRef .tc main_arg6) = m ((c : Thread nD τ).loc main_arg6) := by
  show StableHlo.after hostOps0 (W0 m ρ c) (Proc.devRef .tc main_arg6) = _
  simp only [hostOps0]
  after_results_simp
theorem W1_arg7 : W1 m ρ c (Proc.devRef .tc main_arg7) = m ((c : Thread nD τ).loc main_arg7) := by
  show StableHlo.after hostOps0 (W0 m ρ c) (Proc.devRef .tc main_arg7) = _
  simp only [hostOps0]
  after_results_simp
theorem W1_arg8 : W1 m ρ c (Proc.devRef .tc main_arg8) = m ((c : Thread nD τ).loc main_arg8) := by
  show StableHlo.after hostOps0 (W0 m ρ c) (Proc.devRef .tc main_arg8) = _
  simp only [hostOps0]
  after_results_simp
theorem W1_arg9 : W1 m ρ c (Proc.devRef .tc main_arg9) = m ((c : Thread nD τ).loc main_arg9) := by
  show StableHlo.after hostOps0 (W0 m ρ c) (Proc.devRef .tc main_arg9) = _
  simp only [hostOps0]
  after_results_simp
theorem W1_arg10 : W1 m ρ c (Proc.devRef .tc main_arg10) = m ((c : Thread nD τ).loc main_arg10) := by
  show StableHlo.after hostOps0 (W0 m ρ c) (Proc.devRef .tc main_arg10) = _
  simp only [hostOps0]
  after_results_simp

/-! ## After the first linear layer's call -/

theorem W2_v29 : W2 m ρ c (Proc.devRef .tc main_v29) = lin (K := 32) (m ((c : Thread nD τ).loc main_arg0)) (m ((c : Thread nD τ).loc main_arg3)) := by
  refine (W2_arr m ρ c 2).trans ((final0 (V1 m ρ) c).trans ?_)
  show lin (K := 32) (W1 m ρ c (Proc.devRef .tc main_arg0)) (W1 m ρ c (Proc.devRef .tc main_arg3)) = _
  rw [W1_arg0, W1_arg3]
theorem W2_v1 : W2 m ρ c (Proc.devRef .tc main_v1) = K.srcW (m ((c : Thread nD τ).loc main_arg1)) :=
  (W2_of_ne m ρ c main_v1 (by decide)).trans (W1_v1 m ρ c)
theorem W2_v3 : W2 m ρ c (Proc.devRef .tc main_v3) = K.dstW (m ((c : Thread nD τ).loc main_arg1)) :=
  (W2_of_ne m ρ c main_v3 (by decide)).trans (W1_v3 m ρ c)
theorem W2_v5 : W2 m ρ c (Proc.devRef .tc main_v5) = K.withLoops (K.srcW (m ((c : Thread nD τ).loc main_arg1))) :=
  (W2_of_ne m ρ c main_v5 (by decide)).trans (W1_v5 m ρ c)
theorem W2_v6 : W2 m ρ c (Proc.devRef .tc main_v6) = K.withLoops (K.dstW (m ((c : Thread nD τ).loc main_arg1))) :=
  (W2_of_ne m ρ c main_v6 (by decide)).trans (W1_v6 m ρ c)
theorem W2_v28 : W2 m ρ c (Proc.devRef .tc main_v28) = nrmK (m ((c : Thread nD τ).loc main_arg1)) :=
  (W2_of_ne m ρ c main_v28 (by decide)).trans (W1_v28 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)

/-! ## After the first aggregation and the ramp -/

theorem W4_v46 : W4 m ρ c (Proc.devRef .tc main_v46) = h1K (m ((c : Thread nD τ).loc main_arg0)) (m ((c : Thread nD τ).loc main_arg1)) (m ((c : Thread nD τ).loc main_arg3)) (m ((c : Thread nD τ).loc main_arg4)) := by
  show StableHlo.after hostOps1_1 (StableHlo.after hostOps1 (W2 m ρ c)) (Proc.devRef .tc main_v46) = _
  simp only [hostOps1_1, hostOps1]
  after_results_simp
  simp only [TRef.ofBuf_toBuf]
  rw [W2_v29, W2_v5, W2_v6, W2_v28, W2_arg4]
  refine TRef.toBuf_eq_of_heq _ _ _ (heq_of_eq ?_)
  rw [TRef.ofBuf_eq_of_heq _ _ _ HEq.rfl]
  rfl
theorem W4_v1 : W4 m ρ c (Proc.devRef .tc main_v1) = K.srcW (m ((c : Thread nD τ).loc main_arg1)) := by
  refine Eq.trans ?_ (W2_v1 m ρ c)
  show StableHlo.after hostOps1_1 (StableHlo.after hostOps1 (W2 m ρ c)) (Proc.devRef .tc main_v1) = _
  simp only [hostOps1_1, hostOps1]
  after_results_simp
theorem W4_v3 : W4 m ρ c (Proc.devRef .tc main_v3) = K.dstW (m ((c : Thread nD τ).loc main_arg1)) := by
  refine Eq.trans ?_ (W2_v3 m ρ c)
  show StableHlo.after hostOps1_1 (StableHlo.after hostOps1 (W2 m ρ c)) (Proc.devRef .tc main_v3) = _
  simp only [hostOps1_1, hostOps1]
  after_results_simp
theorem W4_v5 : W4 m ρ c (Proc.devRef .tc main_v5) = K.withLoops (K.srcW (m ((c : Thread nD τ).loc main_arg1))) := by
  refine Eq.trans ?_ (W2_v5 m ρ c)
  show StableHlo.after hostOps1_1 (StableHlo.after hostOps1 (W2 m ρ c)) (Proc.devRef .tc main_v5) = _
  simp only [hostOps1_1, hostOps1]
  after_results_simp
theorem W4_v6 : W4 m ρ c (Proc.devRef .tc main_v6) = K.withLoops (K.dstW (m ((c : Thread nD τ).loc main_arg1))) := by
  refine Eq.trans ?_ (W2_v6 m ρ c)
  show StableHlo.after hostOps1_1 (StableHlo.after hostOps1 (W2 m ρ c)) (Proc.devRef .tc main_v6) = _
  simp only [hostOps1_1, hostOps1]
  after_results_simp
theorem W4_v28 : W4 m ρ c (Proc.devRef .tc main_v28) = nrmK (m ((c : Thread nD τ).loc main_arg1)) := by
  refine Eq.trans ?_ (W2_v28 m ρ c)
  show StableHlo.after hostOps1_1 (StableHlo.after hostOps1 (W2 m ρ c)) (Proc.devRef .tc main_v28) = _
  simp only [hostOps1_1, hostOps1]
  after_results_simp
theorem W4_arg2 : W4 m ρ c (Proc.devRef .tc main_arg2) = (m ((c : Thread nD τ).loc main_arg2)) := by
  refine Eq.trans ?_ (W2_arg2 m ρ c)
  show StableHlo.after hostOps1_1 (StableHlo.after hostOps1 (W2 m ρ c)) (Proc.devRef .tc main_arg2) = _
  simp only [hostOps1_1, hostOps1]
  after_results_simp
theorem W4_arg5 : W4 m ρ c (Proc.devRef .tc main_arg5) = (m ((c : Thread nD τ).loc main_arg5)) := by
  refine Eq.trans ?_ (W2_arg5 m ρ c)
  show StableHlo.after hostOps1_1 (StableHlo.after hostOps1 (W2 m ρ c)) (Proc.devRef .tc main_arg5) = _
  simp only [hostOps1_1, hostOps1]
  after_results_simp
theorem W4_arg6 : W4 m ρ c (Proc.devRef .tc main_arg6) = (m ((c : Thread nD τ).loc main_arg6)) := by
  refine Eq.trans ?_ (W2_arg6 m ρ c)
  show StableHlo.after hostOps1_1 (StableHlo.after hostOps1 (W2 m ρ c)) (Proc.devRef .tc main_arg6) = _
  simp only [hostOps1_1, hostOps1]
  after_results_simp
theorem W4_arg7 : W4 m ρ c (Proc.devRef .tc main_arg7) = (m ((c : Thread nD τ).loc main_arg7)) := by
  refine Eq.trans ?_ (W2_arg7 m ρ c)
  show StableHlo.after hostOps1_1 (StableHlo.after hostOps1 (W2 m ρ c)) (Proc.devRef .tc main_arg7) = _
  simp only [hostOps1_1, hostOps1]
  after_results_simp
theorem W4_arg8 : W4 m ρ c (Proc.devRef .tc main_arg8) = (m ((c : Thread nD τ).loc main_arg8)) := by
  refine Eq.trans ?_ (W2_arg8 m ρ c)
  show StableHlo.after hostOps1_1 (StableHlo.after hostOps1 (W2 m ρ c)) (Proc.devRef .tc main_arg8) = _
  simp only [hostOps1_1, hostOps1]
  after_results_simp
theorem W4_arg9 : W4 m ρ c (Proc.devRef .tc main_arg9) = (m ((c : Thread nD τ).loc main_arg9)) := by
  refine Eq.trans ?_ (W2_arg9 m ρ c)
  show StableHlo.after hostOps1_1 (StableHlo.after hostOps1 (W2 m ρ c)) (Proc.devRef .tc main_arg9) = _
  simp only [hostOps1_1, hostOps1]
  after_results_simp
theorem W4_arg10 : W4 m ρ c (Proc.devRef .tc main_arg10) = (m ((c : Thread nD τ).loc main_arg10)) := by
  refine Eq.trans ?_ (W2_arg10 m ρ c)
  show StableHlo.after hostOps1_1 (StableHlo.after hostOps1 (W2 m ρ c)) (Proc.devRef .tc main_arg10) = _
  simp only [hostOps1_1, hostOps1]
  after_results_simp

/-! ## After the second linear layer's call -/

theorem W5_v47 : W5 m ρ c (Proc.devRef .tc main_v47) = lin (K := 64) (h1K (m ((c : Thread nD τ).loc main_arg0)) (m ((c : Thread nD τ).loc main_arg1)) (m ((c : Thread nD τ).loc main_arg3)) (m ((c : Thread nD τ).loc main_arg4))) (m ((c : Thread nD τ).loc main_arg5)) := by
  refine (W5_arr m ρ c 2).trans ((final1 (V4 m ρ) c).trans ?_)
  show lin (K := 64) (W4 m ρ c (Proc.devRef .tc main_v46)) (W4 m ρ c (Proc.devRef .tc main_arg5)) = _
  rw [W4_v46, W4_arg5]
theorem W5_v1 : W5 m ρ c (Proc.devRef .tc main_v1) = K.srcW (m ((c : Thread nD τ).loc main_arg1)) :=
  (W5_of_ne m ρ c main_v1 (by decide)).trans (W4_v1 m ρ c)
theorem W5_v3 : W5 m ρ c (Proc.devRef .tc main_v3) = K.dstW (m ((c : Thread nD τ).loc main_arg1)) :=
  (W5_of_ne m ρ c main_v3 (by decide)).trans (W4_v3 m ρ c)
theorem W5_v5 : W5 m ρ c (Proc.devRef .tc main_v5) = K.withLoops (K.srcW (m ((c : Thread nD τ).loc main_arg1))) :=
  (W5_of_ne m ρ c main_v5 (by decide)).trans (W4_v5 m ρ c)
theorem W5_v6 : W5 m ρ c (Proc.devRef .tc main_v6) = K.withLoops (K.dstW (m ((c : Thread nD τ).loc main_arg1))) :=
  (W5_of_ne m ρ c main_v6 (by decide)).trans (W4_v6 m ρ c)
theorem W5_v28 : W5 m ρ c (Proc.devRef .tc main_v28) = nrmK (m ((c : Thread nD τ).loc main_arg1)) :=
  (W5_of_ne m ρ c main_v28 (by decide)).trans (W4_v28 m ρ c)
theorem W5_arg2 : W5 m ρ c (Proc.devRef .tc main_arg2) = (m ((c : Thread nD τ).loc main_arg2)) :=
  (W5_of_ne m ρ c main_arg2 (by decide)).trans (W4_arg2 m ρ c)
theorem W5_arg6 : W5 m ρ c (Proc.devRef .tc main_arg6) = (m ((c : Thread nD τ).loc main_arg6)) :=
  (W5_of_ne m ρ c main_arg6 (by decide)).trans (W4_arg6 m ρ c)
theorem W5_arg7 : W5 m ρ c (Proc.devRef .tc main_arg7) = (m ((c : Thread nD τ).loc main_arg7)) :=
  (W5_of_ne m ρ c main_arg7 (by decide)).trans (W4_arg7 m ρ c)
theorem W5_arg8 : W5 m ρ c (Proc.devRef .tc main_arg8) = (m ((c : Thread nD τ).loc main_arg8)) :=
  (W5_of_ne m ρ c main_arg8 (by decide)).trans (W4_arg8 m ρ c)
theorem W5_arg9 : W5 m ρ c (Proc.devRef .tc main_arg9) = (m ((c : Thread nD τ).loc main_arg9)) :=
  (W5_of_ne m ρ c main_arg9 (by decide)).trans (W4_arg9 m ρ c)
theorem W5_arg10 : W5 m ρ c (Proc.devRef .tc main_arg10) = (m ((c : Thread nD τ).loc main_arg10)) :=
  (W5_of_ne m ρ c main_arg10 (by decide)).trans (W4_arg10 m ρ c)

end Cert.KernelIdeal.Hand

end
-- ==== Proof.Edge.lean ====
/-
  The edge classifier's pallas_call, as one function of the arrays it finds.

  The call tiles the 1600000 edges into 125 blocks of 12800; the output is kept transposed, [5, 1600000], so that block t of the
  output is columns 12800·t … 12800·t + 12799. At a grid point the body works through its block in two halves of 6400 edges: for
  each half it multiplies the source rows, the destination rows and the attribute rows by the three weight blocks, adds the three
  products and the bias, takes the ramp, multiplies by the second weight matrix, adds the second bias, transposes the [6400, 5]
  result and stores it into the half's columns of the output block. Over the extended reals the bf16 casts are the identity and
  every matrix unit starts from the zero splat, so each stored entry is the one function `rowOut` of its edge's three rows;
  the two halves and the 125 blocks tile the output array, which therefore ends holding `edgeT` of the arrays the call finds.
-/
import proofs.«104207_j25220047962748_2_alg».proof.Proof.Gen.KernelIdeal.Frame
import proofs.«104207_j25220047962748_2_alg».proof.Proof.LibDotInnerHost
import Idealize.ShloMosaic.Lib.Pipeline.Value
import Idealize.ShloMosaic.Lib.ValueIdx
import Idealize.ShloMosaic.Lib.Tactic

set_option maxRecDepth 16384

noncomputable section

open scoped BigOperators

namespace Cert.Bridge

open Idealize.ShloMosaic Idealize.ShloMosaic.ValueIdx

/-- Class j's score of row p of a table of n edges: the three partial products against the three weight blocks and the bias
    (a [1, 64] row), the ramp, the second product and its bias (a [1, 5] row). -/
def rowOut {n : ℕ} (x0 x1 : (⟨2, ![n, 64]⟩ : Shape).Idx → EReal) (x2 : (⟨2, ![n, 16]⟩ : Shape).Idx → EReal)
    (w3 w4 : (⟨2, ![64, 64]⟩ : Shape).Idx → EReal) (w5 : (⟨2, ![16, 64]⟩ : Shape).Idx → EReal)
    (b6 : (⟨2, ![1, 64]⟩ : Shape).Idx → EReal) (w7 : (⟨2, ![64, 5]⟩ : Shape).Idx → EReal)
    (b8 : (⟨2, ![1, 5]⟩ : Shape).Idx → EReal) (p : Fin n) (j : Fin 5) : EReal :=
  (∑ q : Fin 64, max ((((∑ k : Fin 64, x0 (ix2 p k) * w3 (ix2 k q)) + ∑ k : Fin 64, x1 (ix2 p k) * w4 (ix2 k q))
        + ∑ k : Fin 16, x2 (ix2 p k) * w5 (ix2 k q)) + b6 (ix2 (0 : Fin 1) q)) (Ideal.ofBits .f32 0x00000000#32) * w7 (ix2 q j))
    + b8 (ix2 (0 : Fin 1) j)

/-- The scores depend on the three tables only through the row read. -/
theorem rowOut_congr {n n' : ℕ} (x0 x1 : (⟨2, ![n, 64]⟩ : Shape).Idx → EReal) (x2 : (⟨2, ![n, 16]⟩ : Shape).Idx → EReal)
    (y0 y1 : (⟨2, ![n', 64]⟩ : Shape).Idx → EReal) (y2 : (⟨2, ![n', 16]⟩ : Shape).Idx → EReal)
    (w3 w4 : (⟨2, ![64, 64]⟩ : Shape).Idx → EReal) (w5 : (⟨2, ![16, 64]⟩ : Shape).Idx → EReal)
    (b6 : (⟨2, ![1, 64]⟩ : Shape).Idx → EReal) (w7 : (⟨2, ![64, 5]⟩ : Shape).Idx → EReal)
    (b8 : (⟨2, ![1, 5]⟩ : Shape).Idx → EReal) (p : Fin n) (p' : Fin n') (j : Fin 5)
    (h0 : ∀ k, x0 (ix2 p k) = y0 (ix2 p' k)) (h1 : ∀ k, x1 (ix2 p k) = y1 (ix2 p' k)) (h2 : ∀ k, x2 (ix2 p k) = y2 (ix2 p' k)) :
    rowOut x0 x1 x2 w3 w4 w5 b6 w7 b8 p j = rowOut y0 y1 y2 w3 w4 w5 b6 w7 b8 p' j := by
  unfold rowOut
  simp only [h0, h1, h2]

/-- The transposed score table [5, 1600000] of the whole edge list. -/
def edgeT (hs hd : (⟨2, ![1600000, 64]⟩ : Shape).Idx → EReal) (ea : (⟨2, ![1600000, 16]⟩ : Shape).Idx → EReal)
    (w3 w4 : (⟨2, ![64, 64]⟩ : Shape).Idx → EReal) (w5 : (⟨2, ![16, 64]⟩ : Shape).Idx → EReal)
    (b6 : (⟨2, ![1, 64]⟩ : Shape).Idx → EReal) (w7 : (⟨2, ![64, 5]⟩ : Shape).Idx → EReal)
    (b8 : (⟨2, ![1, 5]⟩ : Shape).Idx → EReal) : (⟨2, ![5, 1600000]⟩ : Shape).Idx → EReal :=
  fun i => rowOut hs hd ea w3 w4 w5 b6 w7 b8 (i 1) (i 0)

end Cert.Bridge

namespace Cert.KernelIdeal.Hand

open Cert.KernelIdeal Cert.KernelIdeal.Gen Cert.Bridge
open Idealize.ShloMosaic Idealize.ShloMosaic.TcCoe Idealize.ShloMosaic.ValueIdx Idealize.SL.Sem
open Idealize.ShloMosaic.Pipeline (Dat)
open Idealize.ShloMosaic.DotInner

variable (V : (c : Dev nD) → (b : Ref sig .tc) → Buf (Elt Ideal) ((c : Thread nD τ).loc b))

theorem hzE : (![0, 0] : Fin 2 → Nat) = fun _ => 0 := funext fun a => by fin_cases a <;> rfl

theorem plain_hid : Plain dot_S6400x64_S64x64_S6400x64_1_0_0_1_n_n :=
  plain_record dot_S6400x64_S64x64_S6400x64_1_0_0_1_n_n, S6400x64, S64x64
theorem plain_att : Plain dot_S6400x16_S16x64_S6400x64_1_0_0_1_n_n :=
  plain_record dot_S6400x16_S16x64_S6400x64_1_0_0_1_n_n, S6400x16, S16x64
theorem plain_out : Plain dot_S6400x64_S64x5_S6400x5_1_0_0_1_n_n :=
  plain_record dot_S6400x64_S64x5_S6400x5_1_0_0_1_n_n, S6400x64, S64x5

/-- The three matrix units of the body, from the zero splat, at an entry. -/
theorem mm_hid {φ ψ : FTy} (l : FVec Ideal S6400x64 φ) (r : FVec Ideal S64x64 ψ) (p : Fin 6400) (q : Fin 64) :
    matmul dot_S6400x64_S64x64_S6400x64_1_0_0_1_n_n none l r (constant (F := Ideal) S6400x64 .f32 0x00000000#32) (ix2 p q)
      = ∑ k : Fin 64, l (ix2 p k) * r (ix2 k q) := plain_hid.matmul_zero none l r p q
theorem mm_att {φ ψ : FTy} (l : FVec Ideal S6400x16 φ) (r : FVec Ideal S16x64 ψ) (p : Fin 6400) (q : Fin 64) :
    matmul dot_S6400x16_S16x64_S6400x64_1_0_0_1_n_n none l r (constant (F := Ideal) S6400x64 .f32 0x00000000#32) (ix2 p q)
      = ∑ k : Fin 16, l (ix2 p k) * r (ix2 k q) := plain_att.matmul_zero none l r p q
theorem mm_out {φ ψ : FTy} (l : FVec Ideal S6400x64 φ) (r : FVec Ideal S64x5 ψ) (p : Fin 6400) (j : Fin 5) :
    matmul dot_S6400x64_S64x5_S6400x5_1_0_0_1_n_n none l r (constant (F := Ideal) S6400x5 .f32 0x00000000#32) (ix2 p j)
      = ∑ q : Fin 64, l (ix2 p q) * r (ix2 q j) := plain_out.matmul_zero none l r p j

/-- One half's stored tile at (class j, edge p of the half), from the weights already cast and the half's rows. -/
theorem tile_apply (w3 w4 : FVec Ideal S64x64 .bf16) (w5 : FVec Ideal S16x64 .bf16) (b6 : FVec Ideal S1x64 .f32)
    (w7 : FVec Ideal S64x5 .bf16) (b8 : FVec Ideal S1x5 .f32)
    (x0 x1 : Vec Ideal S6400x64 .bf16) (x2 : Vec Ideal S6400x16 .bf16) (j : Fin 5) (p : Fin 6400) :
    k2_pay1 w3 w4 w5 b6 w7 b8 x0 x1 x2 (ix2 j p) = rowOut (n := 6400) x0 x1 x2 w3 w4 w5 b6 w7 b8 p j := by
  unfold k2_pay1
  simp only [shapeCast_self]
  rw [transpose_apply [1, 0] _ transposes_S6400x5_p1_0_S5x6400 (ix2 j p) (ix2 p j)
    (fun b => by match b with | ⟨0, _⟩ => rfl | ⟨1, _⟩ => rfl)]
  rw [addf_apply, mm_out,
    broadcastTo_apply b8 broadcasts_S1x5_S6400x5 (ix2 p j) (ix2 (0 : Fin 1) j)
      (fun a => by match a with | ⟨0, _⟩ => rfl | ⟨1, _⟩ => rfl)]
  unfold rowOut
  congr 1
  refine Finset.sum_congr rfl fun q _ => ?_
  congr 1
  rw [truncf_apply, maximumf_apply, addf_apply, addf_apply, addf_apply, mm_hid, mm_hid, mm_att,
    broadcastTo_apply b6 broadcasts_S1x64_S6400x64 (ix2 p q) (ix2 (0 : Fin 1) q)
      (fun a => by match a with | ⟨0, _⟩ => rfl | ⟨1, _⟩ => rfl)]
  rfl

/-- The weights as the halves use them are the weights loaded: the casts change nothing. -/
theorem casts_id (v0 v3 : Vec Ideal S64x64 .f32) (v6 : Vec Ideal S16x64 .f32) (v9 : Vec Ideal S1x64 .f32)
    (v11 : Vec Ideal S64x5 .f32) (v13 : Vec Ideal S1x5 .f32) :
    (k2_pay2 v0 : S64x64.Idx → EReal) = v0 ∧ (k2_pay3 v3 : S64x64.Idx → EReal) = v3 ∧ (k2_pay4 v6 : S16x64.Idx → EReal) = v6
      ∧ (k2_pay5 v9 : S1x64.Idx → EReal) = v9 ∧ (k2_pay6 v11 : S64x5.Idx → EReal) = v11 ∧ (k2_pay7 v13 : S1x5.Idx → EReal) = v13 := by
  refine ⟨?_, ?_, ?_, ?_, ?_, ?_⟩
  · unfold k2_pay2; exact shapeCast_self v0 _
  · unfold k2_pay3; exact shapeCast_self v3 _
  · unfold k2_pay4; exact shapeCast_self v6 _
  · unfold k2_pay5; exact shapeCast_self v9 _
  · unfold k2_pay6; rfl
  · unfold k2_pay7; exact shapeCast_self v13 _

/-- The second half's tile in terms of the weights loaded. -/
theorem tile_second (v0 v3 : Vec Ideal S64x64 .f32) (v6 : Vec Ideal S16x64 .f32) (v9 : Vec Ideal S1x64 .f32)
    (v11 : Vec Ideal S64x5 .f32) (v13 : Vec Ideal S1x5 .f32)
    (x0 x1 : Vec Ideal S6400x64 .bf16) (x2 : Vec Ideal S6400x16 .bf16) (j : Fin 5) (p : Fin 6400) :
    k2_pay1 (k2_pay2 v0) (k2_pay3 v3) (k2_pay4 v6) (k2_pay5 v9) (k2_pay6 v11) (k2_pay7 v13) x0 x1 x2 (ix2 j p)
      = rowOut (n := 6400) x0 x1 x2 v0 v3 v6 v9 v11 v13 p j := by
  obtain ⟨e2, e3, e4, e5, e6, e7⟩ := casts_id v0 v3 v6 v9 v11 v13
  rw [tile_apply, e2, e3, e4, e5, e6, e7]

/-- The first half's tile: its payload is the second half's with the casts written inside. -/
theorem tile_first (v0 v3 : Vec Ideal S64x64 .f32) (v6 : Vec Ideal S16x64 .f32) (v9 : Vec Ideal S1x64 .f32)
    (v11 : Vec Ideal S64x5 .f32) (v13 : Vec Ideal S1x5 .f32)
    (x0 x1 : Vec Ideal S6400x64 .bf16) (x2 : Vec Ideal S6400x16 .bf16) (j : Fin 5) (p : Fin 6400) :
    k2_pay8 v0 v3 v6 v9 v11 v13 x0 x1 x2 (ix2 j p) = rowOut (n := 6400) x0 x1 x2 v0 v3 v6 v9 v11 v13 p j :=
  tile_second v0 v3 v6 v9 v11 v13 x0 x1 x2 j p

/-- The index maps over the 125 grid points: the three edge tables' row blocks move with the point, the six small operands stay
    whole, the output's column block moves with the point. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = t.val) :=
  (by decide +kernel : ∀ t : Fin grid2.N, _)

/-- Row r of point t's block of the source table is row 12800·t + r of the table the call finds. -/
theorem rows0 (c : Dev nD) (t : Fin cfg2.N) (r : Fin 12800) (k : Fin 64) (R : Fin 1600000) (hR : R.val = 12800 * t.val + r.val) :
    (iblk2 V c 0 t : S12800x64.Idx → EReal) (ix2 r k) = (V c main_v71 : S1600000x64.Idx → EReal) (ix2 R k) := by
  obtain ⟨⟨e0, e1⟩, -⟩ := idx_facts2 t
  unfold iblk2
  rw [View.read_apply]
  show V c main_v71 _ = V c main_v71 _
  congr 1
  funext a
  apply Fin.ext
  match a with
  | ⟨0, _⟩ => show win2_0.index t (0 : Fin 2) * 12800 + 1 * r.val = R.val; omega
  | ⟨1, _⟩ => show win2_0.index t (1 : Fin 2) * 64 + 1 * k.val = k.val; omega
/-- The same of the destination table. -/
theorem rows1 (c : Dev nD) (t : Fin cfg2.N) (r : Fin 12800) (k : Fin 64) (R : Fin 1600000) (hR : R.val = 12800 * t.val + r.val) :
    (iblk2 V c 1 t : S12800x64.Idx → EReal) (ix2 r k) = (V c main_v78 : S1600000x64.Idx → EReal) (ix2 R k) := by
  obtain ⟨-, ⟨e0, e1⟩, -⟩ := idx_facts2 t
  unfold iblk2
  rw [View.read_apply]
  show V c main_v78 _ = V c main_v78 _
  congr 1
  funext a
  apply Fin.ext
  match a with
  | ⟨0, _⟩ => show win2_1.index t (0 : Fin 2) * 12800 + 1 * r.val = R.val; omega
  | ⟨1, _⟩ => show win2_1.index t (1 : Fin 2) * 64 + 1 * k.val = k.val; omega
/-- The same of the attribute table. -/
theorem rows2 (c : Dev nD) (t : Fin cfg2.N) (r : Fin 12800) (k : Fin 16) (R : Fin 1600000) (hR : R.val = 12800 * t.val + r.val) :
    (iblk2 V c 2 t : S12800x16.Idx → EReal) (ix2 r k) = (V c main_v79 : S1600000x16.Idx → EReal) (ix2 R k) := by
  obtain ⟨-, -, ⟨e0, e1⟩, -⟩ := idx_facts2 t
  unfold iblk2
  rw [View.read_apply]
  show V c main_v79 _ = V c main_v79 _
  congr 1
  funext a
  apply Fin.ext
  match a with
  | ⟨0, _⟩ => show win2_2.index t (0 : Fin 2) * 12800 + 1 * r.val = R.val; omega
  | ⟨1, _⟩ => show win2_2.index t (1 : Fin 2) * 16 + 1 * k.val = k.val; omega

/-- The six small operands' blocks are the arrays the call finds, at every point. -/
theorem whole3 (c : Dev nD) (t : Fin cfg2.N) : (iblk2 V c 3 t : S64x64.Idx → EReal) = (V c main_v80 : S64x64.Idx → EReal) := by
  obtain ⟨-, -, -, ⟨e0, e1⟩, -⟩ := idx_facts2 t
  funext y
  unfold iblk2
  rw [View.read_apply]
  show V c main_v80 _ = V c main_v80 _
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega
theorem whole4 (c : Dev nD) (t : Fin cfg2.N) : (iblk2 V c 4 t : S64x64.Idx → EReal) = (V c main_v81 : S64x64.Idx → EReal) := by
  obtain ⟨-, -, -, -, ⟨e0, e1⟩, -⟩ := idx_facts2 t
  funext y
  unfold iblk2
  rw [View.read_apply]
  show V c main_v81 _ = V c main_v81 _
  congr 1
  funext a
  apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega
theorem whole5 (c : Dev nD) (t : Fin cfg2.N) : (iblk2 V c 5 t : S16x64.Idx → EReal) = (V c main_v82 : S16x64.Idx → EReal) := by
  obtain ⟨-, -, -, -, -, ⟨e0, e1⟩, -⟩ := idx_facts2 t
  funext y
  unfold iblk2
  rw [View.read_apply]
  show V c main_v82 _ = V c main_v82 _
  congr 1
  funext a
  apply Fin.ext
  match a with
  | ⟨0, _⟩ => show win2_5.index t (0 : Fin 2) * 16 + 1 * (y 0).val = (y 0).val; omega
  | ⟨1, _⟩ => show win2_5.index t (1 : Fin 2) * 64 + 1 * (y 1).val = (y 1).val; omega
theorem whole6 (c : Dev nD) (t : Fin cfg2.N) : (iblk2 V c 6 t : S1x64.Idx → EReal) = (V c main_v83 : S1x64.Idx → EReal) := by
  obtain ⟨-, -, -, -, -, -, ⟨e0, e1⟩, -⟩ := idx_facts2 t
  funext y
  unfold iblk2
  rw [View.read_apply]
  show V c main_v83 _ = V c main_v83 _
  congr 1
  funext a
  apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega
theorem whole7 (c : Dev nD) (t : Fin cfg2.N) : (iblk2 V c 7 t : S64x5.Idx → EReal) = (V c main_arg9 : S64x5.Idx → EReal) := by
  obtain ⟨-, -, -, -, -, -, -, ⟨e0, e1⟩, -⟩ := idx_facts2 t
  funext y
  unfold iblk2
  rw [View.read_apply]
  show V c main_arg9 _ = V c main_arg9 _
  congr 1
  funext a
  apply Fin.ext
  match a with
  | ⟨0, _⟩ => show win2_7.index t (0 : Fin 2) * 64 + 1 * (y 0).val = (y 0).val; omega
  | ⟨1, _⟩ => show win2_7.index t (1 : Fin 2) * 5 + 1 * (y 1).val = (y 1).val; omega
theorem whole8 (c : Dev nD) (t : Fin cfg2.N) : (iblk2 V c 8 t : S1x5.Idx → EReal) = (V c main_v84 : S1x5.Idx → EReal) := by
  obtain ⟨-, -, -, -, -, -, -, -, ⟨e0, e1⟩, -⟩ := idx_facts2 t
  funext y
  unfold iblk2
  rw [View.read_apply]
  show V c main_v84 _ = V c main_v84 _
  congr 1
  funext a
  apply Fin.ext
  match a with
  | ⟨0, _⟩ => show win2_8.index t (0 : Fin 2) * 1 + 1 * (y 0).val = (y 0).val; omega
  | ⟨1, _⟩ => show win2_8.index t (1 : Fin 2) * 5 + 1 * (y 1).val = (y 1).val; omega

/-- The halves' loads: row q of a half is row q, resp. 6400 + q, of the block. -/
theorem ld_first64 (X : Vec Ideal S12800x64 .bf16) (q : Fin 6400) (k : Fin 64) :
    View.ld (Val := Elt Ideal) X r2_5 (ix2 q k) = X (ix2 (⟨q.val, by omega⟩ : Fin 12800) k) := by
  show X _ = X _
  congr 1
  funext a
  apply Fin.ext
  match a with
  | ⟨0, _⟩ => show 0 + 1 * q.val = q.val; omega
  | ⟨1, _⟩ => show 0 + 1 * k.val = k.val; omega
theorem ld_first16 (X : Vec Ideal S12800x16 .bf16) (q : Fin 6400) (k : Fin 16) :
    View.ld (Val := Elt Ideal) X r2_6 (ix2 q k) = X (ix2 (⟨q.val, by omega⟩ : Fin 12800) k) := by
  show X _ = X _
  congr 1
  funext a
  apply Fin.ext
  match a with
  | ⟨0, _⟩ => show 0 + 1 * q.val = q.val; omega
  | ⟨1, _⟩ => show 0 + 1 * k.val = k.val; omega
theorem ld_second64 (X : Vec Ideal S12800x64 .bf16) (q : Fin 6400) (k : Fin 64) :
    View.ld (Val := Elt Ideal) X r2_8 (ix2 q k) = X (ix2 (⟨6400 + q.val, by omega⟩ : Fin 12800) k) := by
  show X _ = X _
  congr 1
  funext a
  apply Fin.ext
  match a with
  | ⟨0, _⟩ => show 6400 + 1 * q.val = 6400 + q.val; omega
  | ⟨1, _⟩ => show 0 + 1 * k.val = k.val; omega
theorem ld_second16 (X : Vec Ideal S12800x16 .bf16) (q : Fin 6400) (k : Fin 16) :
    View.ld (Val := Elt Ideal) X r2_9 (ix2 q k) = X (ix2 (⟨6400 + q.val, by omega⟩ : Fin 12800) k) := by
  show X _ = X _
  congr 1
  funext a
  apply Fin.ext
  match a with
  | ⟨0, _⟩ => show 6400 + 1 * q.val = 6400 + q.val; omega
  | ⟨1, _⟩ => show 0 + 1 * k.val = k.val; omega

/-- The table the call's output ends holding, of the arrays it finds. -/
abbrev found (c : Dev nD) : S5x1600000.Idx → EReal :=
  edgeT (V c main_v71) (V c main_v78) (V c main_v79) (V c main_v80) (V c main_v81) (V c main_v82) (V c main_v83) (V c main_arg9)
    (V c main_v84)

/-- Column col of point t's output block is edge 12800·t + col. -/
theorem out_emb (t : Fin cfg2.N) (jj : Fin 5) (col : Fin 12800) (R : Fin 1600000) (hR : R.val = 12800 * t.val + col.val) :
    ((cfg2.win 9).blk t).view.emb (ix2 jj col) = (ix2 jj R : S5x1600000.Idx) := by
  obtain ⟨-, -, -, -, -, -, -, -, -, ⟨e0, e1⟩⟩ := idx_facts2 t
  funext a
  apply Fin.ext
  match a with
  | ⟨0, _⟩ => show win2_9.index t (0 : Fin 2) * 5 + 1 * jj.val = jj.val; omega
  | ⟨1, _⟩ => show win2_9.index t (1 : Fin 2) * 12800 + 1 * col.val = R.val; omega

set_option maxHeartbeats 1000000 in
/-- What point t writes back is block t of the score table. -/
theorem flushed2_eq (c : Dev nD) (t : Fin cfg2.N) :
    (dat2 V c).flushed 9 t = ((cfg2.win 9).blk t).view.read (Elt Ideal) (found V c) := by
  have hN : cfg2.N = 125 := N_2
  have htN : t.val < 125 := hN ▸ t.isLt
  show (cfg2.win 9).cut (grid2.coords t) ((dat2 V c).after 9 t) = _
  rw [after2_9]
  unfold out2_9
  simp only [View.ld_unit_zero (S := S64x64) hzE, View.ld_unit_zero (S := S16x64) hzE, View.ld_unit_zero (S := S1x64) hzE,
    View.ld_unit_zero (S := S64x5) hzE, View.ld_unit_zero (S := S1x5) hzE]
  funext y
  show View.canon (Val := Elt Ideal) (s := S5x12800) (e := .f32) _ y = found V c (((cfg2.win 9).blk t).view.emb y)
  refine View.canon_apply_of_pieces (Val := Elt Ideal) (S := S5x12800) (e := .f32)
    (fun y => found V c (((cfg2.win 9).blk t).view.emb y)) _ ?_ y (cover2_9 _ _ y)
  intro pc hpc
  rcases List.mem_cons.mp hpc with rfl | hpc
  · -- the second half: columns 6400 … 12799 of the block
    intro x
    obtain ⟨jj, q, rfl⟩ : ∃ (jj : Fin 5) (q : Fin 6400), x = ix2 jj q := ⟨x 0, x 1, eq_ix2 x⟩
    have hcol : r2_10.emb (ix2 jj q) = (ix2 jj (⟨6400 + q.val, by omega⟩ : Fin 12800) : S5x12800.Idx) := by
      funext a
      apply Fin.ext
      match a with
      | ⟨0, _⟩ => show 0 + 1 * jj.val = jj.val; omega
      | ⟨1, _⟩ => show 6400 + 1 * q.val = 6400 + q.val; omega
    dsimp only
    rw [hcol, out_emb t jj _ (⟨12800 * t.val + (6400 + q.val), by omega⟩ : Fin 1600000) rfl, tile_second]
    show rowOut (n := 6400) _ _ _ _ _ _ _ _ _ q jj
      = rowOut (n := 1600000) _ _ _ _ _ _ _ _ _ (⟨12800 * t.val + (6400 + q.val), by omega⟩ : Fin 1600000) jj
    rw [whole3, whole4, whole5, whole6, whole7, whole8]
    refine rowOut_congr _ _ _ _ _ _ _ _ _ _ _ _ q (⟨12800 * t.val + (6400 + q.val), by omega⟩ : Fin 1600000) jj
      (fun k => ?_) (fun k => ?_) (fun k => ?_)
    · exact (ld_second64 _ q k).trans (rows0 V c t (⟨6400 + q.val, by omega⟩ : Fin 12800) k (⟨12800 * t.val + (6400 + q.val), by omega⟩ : Fin 1600000) rfl)
    · exact (ld_second64 _ q k).trans (rows1 V c t (⟨6400 + q.val, by omega⟩ : Fin 12800) k (⟨12800 * t.val + (6400 + q.val), by omega⟩ : Fin 1600000) rfl)
    · exact (ld_second16 _ q k).trans (rows2 V c t (⟨6400 + q.val, by omega⟩ : Fin 12800) k (⟨12800 * t.val + (6400 + q.val), by omega⟩ : Fin 1600000) rfl)
  · rcases List.mem_cons.mp hpc with rfl | hpc
    · -- the first half: columns 0 … 6399
      intro x
      obtain ⟨jj, q, rfl⟩ : ∃ (jj : Fin 5) (q : Fin 6400), x = ix2 jj q := ⟨x 0, x 1, eq_ix2 x⟩
      have hcol : r2_7.emb (ix2 jj q) = (ix2 jj (⟨q.val, by omega⟩ : Fin 12800) : S5x12800.Idx) := by
        funext a
        apply Fin.ext
        match a with
        | ⟨0, _⟩ => show 0 + 1 * jj.val = jj.val; omega
        | ⟨1, _⟩ => show 0 + 1 * q.val = q.val; omega
      dsimp only
      rw [hcol, out_emb t jj _ (⟨12800 * t.val + q.val, by omega⟩ : Fin 1600000) rfl, tile_first]
      show rowOut (n := 6400) _ _ _ _ _ _ _ _ _ q jj
        = rowOut (n := 1600000) _ _ _ _ _ _ _ _ _ (⟨12800 * t.val + q.val, by omega⟩ : Fin 1600000) jj
      rw [whole3, whole4, whole5, whole6, whole7, whole8]
      refine rowOut_congr _ _ _ _ _ _ _ _ _ _ _ _ q (⟨12800 * t.val + q.val, by omega⟩ : Fin 1600000) jj
        (fun k => ?_) (fun k => ?_) (fun k => ?_)
      · exact (ld_first64 _ q k).trans (rows0 V c t (⟨q.val, by omega⟩ : Fin 12800) k (⟨12800 * t.val + q.val, by omega⟩ : Fin 1600000) rfl)
      · exact (ld_first64 _ q k).trans (rows1 V c t (⟨q.val, by omega⟩ : Fin 12800) k (⟨12800 * t.val + q.val, by omega⟩ : Fin 1600000) rfl)
      · exact (ld_first16 _ q k).trans (rows2 V c t (⟨q.val, by omega⟩ : Fin 12800) k (⟨12800 * t.val + q.val, by omega⟩ : Fin 1600000) rfl)
    · exact absurd hpc (List.not_mem_nil)

/-- An index of the output array is in point t's block iff each coordinate is in the block's range. -/
theorem mem_blk2 (t : Fin cfg2.N) (i : S5x1600000.Idx) :
    i ∈ ((cfg2.win 9).blk t).view.set ↔ ∀ a : Fin 2, win2_9.index t a * S5x12800.size a ≤ (i a).val ∧ (i a).val < win2_9.index t a * S5x12800.size a + S5x12800.size a := by
  show i ∈ ((View.whole main_v85).slice (win2_9.rect t)).set ↔ _
  rw [View.set_slice_whole, Rect.mem_set_unit]
  exact Iff.rfl

/-- Edge e lies in the block of point e / 12800. -/
theorem cover2 (i : S5x1600000.Idx) : ∃ t : Fin cfg2.N, (cfg2.win 9).flush t = true ∧ i ∈ ((cfg2.win 9).blk t).view.set := by
  have hi0 : (i 0).val < 5 := (i 0).isLt
  have hi1 : (i 1).val < 1600000 := (i 1).isLt
  have hN : cfg2.N = 125 := N_2
  let t : Fin cfg2.N := ⟨(i 1).val / 12800, by rw [hN]; omega⟩
  obtain ⟨-, -, -, -, -, -, -, -, -, ⟨e0, e1⟩⟩ := idx_facts2 t
  have ht : t.val = (i 1).val / 12800 := rfl
  refine ⟨t, flush2_9 t, ?_⟩
  rw [mem_blk2]
  intro a
  match a with
  | ⟨0, _⟩ => show win2_9.index t (0 : Fin 2) * 5 ≤ (i 0).val ∧ (i 0).val < win2_9.index t (0 : Fin 2) * 5 + 5; omega
  | ⟨1, _⟩ => show win2_9.index t (1 : Fin 2) * 12800 ≤ (i 1).val ∧ (i 1).val < win2_9.index t (1 : Fin 2) * 12800 + 12800; omega

/-- The output array after the call: the score table of the arrays the call finds. -/
theorem final2 (c : Dev nD) : (dat2 V c).arrAt 9 cfg2.N = found V c :=
  (dat2 V c).arrAt_eq_of_cover 9 _ (fun t _ => flushed2_eq V c t) cover2

end Cert.KernelIdeal.Hand

end
-- ==== Proof.ChainB.lean ====
/-
  The idealized kernel's result, as one function of its arguments: the last three segments.

  After the second linear layer's call the host aggregates again (the second convolution), casts the convolved rows to bf16,
  gathers them at every edge's source and destination, casts the attributes, cuts the first classifier weight matrix into its
  three row blocks and reshapes the two biases to rows; the edge classifier's call turns these into the transposed score table;
  the last host operation transposes it back. Over the extended reals the casts are the identity.
-/
import proofs.«104207_j25220047962748_2_alg».proof.Proof.ChainA
import proofs.«104207_j25220047962748_2_alg».proof.Proof.Edge

set_option maxRecDepth 16384

noncomputable section

namespace Cert.KernelIdeal.Hand

open Cert.KernelIdeal Cert.KernelIdeal.Gen Cert.Bridge
open Idealize.ShloMosaic Idealize.ShloMosaic.TcCoe Idealize.SL.Sem Idealize.ShloMosaic.StableHlo

/-- The convolved rows, cast, at the ends named by a word list. -/
def rowsK (h : (⟨S100000x64, .f32⟩ : BufTy).Contents (Elt Ideal)) (v : (⟨S1600000, .i32⟩ : BufTy).Contents (Elt Ideal)) :
    (⟨S1600000x64, .bf16⟩ : BufTy).Contents (Elt Ideal) :=
  Host.gather gather_S100000x64_S1600000x1_S1600000x64_1_0_n_n_0_1_164
    (truncf (F := Ideal) (s := S100000x64) (φ := .f32) .bf16 h bitsLt_bf16_f32)
    (K.startsE v)

/-- The kernel's result: the score table of the convolved rows at each edge's ends, transposed back to [1600000, 5]. -/
def outK (x : (⟨S100000x32, .f32⟩ : BufTy).Contents (Elt Ideal)) (ei : (⟨S2x1600000, .i32⟩ : BufTy).Contents (Elt Ideal))
    (ea : (⟨S1600000x16, .f32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (wc1 : (⟨S144x64, .f32⟩ : BufTy).Contents (Elt Ideal)) (bc1 : (⟨S64, .f32⟩ : BufTy).Contents (Elt Ideal))
    (wc2 : (⟨S64x5, .f32⟩ : BufTy).Contents (Elt Ideal)) (bc2 : (⟨S5, .f32⟩ : BufTy).Contents (Elt Ideal)) :
    (⟨S1600000x5, .f32⟩ : BufTy).Contents (Elt Ideal) :=
  transpose S1600000x5 [1, 0]
    (edgeT (rowsK (h2K x ei w1 b1 w2 b2) (K.srcW ei)) (rowsK (h2K x ei w1 b1 w2 b2) (K.dstW ei))
      (truncf (F := Ideal) (s := S1600000x16) (φ := .f32) .bf16 ea bitsLt_bf16_f32)
      (extractStridedSlice S64x64 ![0, 0] wc1 slices_S144x64_S64x64_0_0)
      (extractStridedSlice S64x64 ![64, 0] wc1 slices_S144x64_S64x64_64_0)
      (extractStridedSlice S16x64 ![128, 0] wc1 slices_S144x64_S16x64_128_0)
      (shapeCast S1x64 bc1 shapeCasts_S64_S1x64) wc2 (shapeCast S1x5 bc2 shapeCasts_S5_S1x5))
    transposes_S5x1600000_S1600000x5_1_0

variable (m : (ℓ : Loc nD τ sig) → Buf (Elt Ideal) ℓ) (ρ : Dev nD → PrngReg) (c : Dev nD)

/-! ## At the edge classifier's entry -/

theorem W6_v71 : W6 m ρ c (Proc.devRef .tc main_v71) = rowsK (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (K.srcW (m ((c : Thread nD τ).loc main_arg1))) := by
  show StableHlo.after hostOps2 (W5 m ρ c) (Proc.devRef .tc main_v71) = _
  simp only [hostOps2]
  after_results_simp
  rw [W5_v47, W5_v1, W5_v5, W5_v6, W5_v28, W5_arg6]
  rfl
theorem W6_v78 : W6 m ρ c (Proc.devRef .tc main_v78) = rowsK (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (K.dstW (m ((c : Thread nD τ).loc main_arg1))) := by
  show StableHlo.after hostOps2 (W5 m ρ c) (Proc.devRef .tc main_v78) = _
  simp only [hostOps2]
  after_results_simp
  rw [W5_v47, W5_v3, W5_v5, W5_v6, W5_v28, W5_arg6]
  rfl
theorem W6_v79 : W6 m ρ c (Proc.devRef .tc main_v79)
    = truncf (F := Ideal) (s := S1600000x16) (φ := .f32) .bf16 (m ((c : Thread nD τ).loc main_arg2)) bitsLt_bf16_f32 := by
  show StableHlo.after hostOps2 (W5 m ρ c) (Proc.devRef .tc main_v79) = _
  simp only [hostOps2]
  after_results_simp
  rw [W5_arg2]
theorem W6_v80 : W6 m ρ c (Proc.devRef .tc main_v80) = extractStridedSlice S64x64 ![0, 0] (m ((c : Thread nD τ).loc main_arg7)) slices_S144x64_S64x64_0_0 := by
  show StableHlo.after hostOps2 (W5 m ρ c) (Proc.devRef .tc main_v80) = _
  simp only [hostOps2]
  after_results_simp
  rw [W5_arg7]
theorem W6_v81 : W6 m ρ c (Proc.devRef .tc main_v81) = extractStridedSlice S64x64 ![64, 0] (m ((c : Thread nD τ).loc main_arg7)) slices_S144x64_S64x64_64_0 := by
  show StableHlo.after hostOps2 (W5 m ρ c) (Proc.devRef .tc main_v81) = _
  simp only [hostOps2]
  after_results_simp
  rw [W5_arg7]
theorem W6_v82 : W6 m ρ c (Proc.devRef .tc main_v82) = extractStridedSlice S16x64 ![128, 0] (m ((c : Thread nD τ).loc main_arg7)) slices_S144x64_S16x64_128_0 := by
  show StableHlo.after hostOps2 (W5 m ρ c) (Proc.devRef .tc main_v82) = _
  simp only [hostOps2]
  after_results_simp
  rw [W5_arg7]
theorem W6_v83 : W6 m ρ c (Proc.devRef .tc main_v83) = shapeCast S1x64 (m ((c : Thread nD τ).loc main_arg8)) shapeCasts_S64_S1x64 := by
  show StableHlo.after hostOps2 (W5 m ρ c) (Proc.devRef .tc main_v83) = _
  simp only [hostOps2]
  after_results_simp
  rw [W5_arg8]
  rfl
theorem W6_v84 : W6 m ρ c (Proc.devRef .tc main_v84) = shapeCast S1x5 (m ((c : Thread nD τ).loc main_arg10)) shapeCasts_S5_S1x5 := by
  show StableHlo.after hostOps2 (W5 m ρ c) (Proc.devRef .tc main_v84) = _
  simp only [hostOps2]
  after_results_simp
  rw [W5_arg10]
  rfl
theorem W6_arg9 : W6 m ρ c (Proc.devRef .tc main_arg9) = (m ((c : Thread nD τ).loc main_arg9)) := by
  refine Eq.trans ?_ (W5_arg9 m ρ c)
  show StableHlo.after hostOps2 (W5 m ρ c) (Proc.devRef .tc main_arg9) = _
  simp only [hostOps2]
  after_results_simp

/-! ## The score table and the result -/

theorem W7_v85 : W7 m ρ c (Proc.devRef .tc main_v85)
    = edgeT (rowsK (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (K.srcW (m ((c : Thread nD τ).loc main_arg1)))) (rowsK (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (K.dstW (m ((c : Thread nD τ).loc main_arg1))))
      (truncf (F := Ideal) (s := S1600000x16) (φ := .f32) .bf16 (m ((c : Thread nD τ).loc main_arg2)) bitsLt_bf16_f32)
      (extractStridedSlice S64x64 ![0, 0] (m ((c : Thread nD τ).loc main_arg7)) slices_S144x64_S64x64_0_0)
      (extractStridedSlice S64x64 ![64, 0] (m ((c : Thread nD τ).loc main_arg7)) slices_S144x64_S64x64_64_0)
      (extractStridedSlice S16x64 ![128, 0] (m ((c : Thread nD τ).loc main_arg7)) slices_S144x64_S16x64_128_0)
      (shapeCast S1x64 (m ((c : Thread nD τ).loc main_arg8)) shapeCasts_S64_S1x64) (m ((c : Thread nD τ).loc main_arg9)) (shapeCast S1x5 (m ((c : Thread nD τ).loc main_arg10)) shapeCasts_S5_S1x5) := by
  refine (W7_arr m ρ c 9).trans ((final2 (V6 m ρ) c).trans ?_)
  show edgeT (W6 m ρ c (Proc.devRef .tc main_v71)) (W6 m ρ c (Proc.devRef .tc main_v78)) (W6 m ρ c (Proc.devRef .tc main_v79))
    (W6 m ρ c (Proc.devRef .tc main_v80)) (W6 m ρ c (Proc.devRef .tc main_v81)) (W6 m ρ c (Proc.devRef .tc main_v82))
    (W6 m ρ c (Proc.devRef .tc main_v83)) (W6 m ρ c (Proc.devRef .tc main_arg9)) (W6 m ρ c (Proc.devRef .tc main_v84)) = _
  rw [W6_v71, W6_v78, W6_v79, W6_v80, W6_v81, W6_v82, W6_v83, W6_arg9, W6_v84]

/-- The result buffer at the last boundary is the kernel's function of the arguments. -/
theorem W8_v86 : W8 m ρ c (Proc.devRef .tc main_v86)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W7 m ρ c) (Proc.devRef .tc main_v86) = _
  simp only [hostOps3]
  after_results_simp
  rw [W7_v85]
  rfl

/-- THE RUN, READ: every weakly fair execution of the idealized kernel terminates, nothing faulting, with the result buffer at
    `outK` of the arguments and the arguments unchanged. -/
theorem kernel_run : θ_run defs (onTc (τ := τ) (main (F := Ideal))) ⟨m, fun _ => 0, ρ⟩ (fun r => ∀ c : Dev nD,
      r.2.mem ((c.tc : Thread nD τ).loc main_v86)
        = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v86 (by decide))).trans (W8_v86 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c)⟩)
    (Named.run_all m ρ)

end Cert.KernelIdeal.Hand

end
-- ==== Proof.EdgeSpec.lean ====
/-
  The edge classifier's last stage, as one function of its operands, entry by entry.

  For an edge e with source features hs[e, :], destination features hd[e, :] (64 each) and its own attributes ea[e, :] (16), the
  hidden unit q is the ramp of

      Σ_k hs[e,k]·Wc1[k,q] + Σ_k hd[e,k]·Wc1[64+k,q] + Σ_k ea[e,k]·Wc1[128+k,q] + bc1[q],

  and class j's score is Σ_q hidden[e,q]·Wc2[q,j] + bc2[j]. The weight matrix Wc1 has 144 rows: the first 64 meet the source
  features, the next 64 the destination features, the last 16 the attributes. Everything is an extended real; the zero the ramp
  compares with is kept as the float word 0x00000000.
-/
import Idealize.ShloMosaic.PureOps.Ideal
import Idealize.ShloMosaic.Lib.ValueIdx

noncomputable section

open scoped BigOperators

namespace Cert.Bridge

open Idealize.ShloMosaic Idealize.ShloMosaic.ValueIdx

abbrev SE64 : Shape := ⟨2, ![1600000, 64]⟩
abbrev SE16 : Shape := ⟨2, ![1600000, 16]⟩
abbrev SW1 : Shape := ⟨2, ![144, 64]⟩
abbrev SW2 : Shape := ⟨2, ![64, 5]⟩
abbrev SB1 : Shape := ⟨1, ![64]⟩
abbrev SB2 : Shape := ⟨1, ![5]⟩

/-- Hidden unit q of edge e before the ramp: the three partial products and the bias, grouped as the kernel adds them. -/
def preact (hs hd : SE64.Idx → EReal) (ea : SE16.Idx → EReal) (Wc1 : SW1.Idx → EReal) (bc1 : SB1.Idx → EReal)
    (e : Fin 1600000) (q : Fin 64) : EReal :=
  (((∑ k : Fin 64, hs (ix2 e k) * Wc1 (ix2 (⟨k.val, by omega⟩ : Fin 144) q))
      + ∑ k : Fin 64, hd (ix2 e k) * Wc1 (ix2 (⟨64 + k.val, by omega⟩ : Fin 144) q))
    + ∑ k : Fin 16, ea (ix2 e k) * Wc1 (ix2 (⟨64 + 64 + k.val, by omega⟩ : Fin 144) q))
  + bc1 (ix1 q)

/-- Hidden unit q of edge e: the ramp of `preact`. -/
def hidden (hs hd : SE64.Idx → EReal) (ea : SE16.Idx → EReal) (Wc1 : SW1.Idx → EReal) (bc1 : SB1.Idx → EReal)
    (e : Fin 1600000) (q : Fin 64) : EReal :=
  max (preact hs hd ea Wc1 bc1 e q) (Ideal.ofBits .f32 0x00000000#32)

/-- Class j's score of edge e. -/
def edgeOut (hs hd : SE64.Idx → EReal) (ea : SE16.Idx → EReal) (Wc1 : SW1.Idx → EReal) (bc1 : SB1.Idx → EReal)
    (Wc2 : SW2.Idx → EReal) (bc2 : SB2.Idx → EReal) (e : Fin 1600000) (j : Fin 5) : EReal :=
  (∑ q : Fin 64, hidden hs hd ea Wc1 bc1 e q * Wc2 (ix2 q j)) + bc2 (ix1 j)

end Cert.Bridge

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«104207_j25220047962748_2_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.RefTail.lean ====
/-
  The reference's last stage read at an entry.

  The reference ends with  relu(concat([hs, hd, ea], axis 1) · Wc1 + bc1) · Wc2 + bc2.  Read at (e, j) the outer layer is
  Σ_q hidden[e,q]·Wc2[q,j] + bc2[j]; hidden[e,q] is the larger of the inner layer's entry and the zero word; the inner
  layer's entry is Σ_{c < 144} cat[e,c]·Wc1[c,q] + bc1[q], and since the joined matrix reads hs in columns 0..63, hd in
  columns 64..127 and ea in columns 128..143, the 144-term sum is the sum of the three blocks' sums. Only the grouping of
  a sum changes (associativity of +), so nothing here asks for finiteness.
-/
import proofs.«104207_j25220047962748_2_alg».proof.ReferenceIdeal
import proofs.«104207_j25220047962748_2_alg».proof.Proof.EdgeSpec
import proofs.«104207_j25220047962748_2_alg».proof.Proof.LibDenseLayer
import proofs.«104207_j25220047962748_2_alg».proof.Proof.LibSumBlocks

noncomputable section

open scoped BigOperators

namespace Cert.Bridge

open Cert.ReferenceIdeal Idealize.ShloMosaic Idealize.ShloMosaic.ValueIdx
open Idealize.ShloMosaic.DotInner Idealize.ShloMosaic.DenseLayer Idealize.ShloMosaic.SumBlocks

variable [Facts₀]
open Facts₀

/-- The three matrices joined side by side, at a column of the first block: the source features. -/
theorem cat3_first (hs hd : S1600000x64.Idx → EReal) (ea : S1600000x16.Idx → EReal) (e : Fin 1600000) (k : Fin 64)
    (c : Fin 144) (hc : c.val = k.val) :
    concatenate S1600000x144 1 [⟨S1600000x64, hs⟩, ⟨S1600000x64, hd⟩, ⟨S1600000x16, ea⟩]
        concatenates_S1600000x64_S1600000x64_S1600000x16_S1600000x144_d1 (ix2 e c) = hs (ix2 e k) := by
  refine concatenate_apply_piece 1 _ _ (ix2 e c) 0 (by show (0 : ℕ) < 3; omega) S1600000x64 hs rfl rfl 0 rfl (ix2 e k) ?_ ?_
  · intro b hb
    match b with
    | ⟨0, _⟩ => rfl
    | ⟨1, _⟩ => exact absurd rfl hb
  · show 0 + k.val = c.val
    omega

/-- … at a column of the second block, counted from 64: the destination features. -/
theorem cat3_second (hs hd : S1600000x64.Idx → EReal) (ea : S1600000x16.Idx → EReal) (e : Fin 1600000) (k : Fin 64)
    (c : Fin 144) (hc : c.val = 64 + k.val) :
    concatenate S1600000x144 1 [⟨S1600000x64, hs⟩, ⟨S1600000x64, hd⟩, ⟨S1600000x16, ea⟩]
        concatenates_S1600000x64_S1600000x64_S1600000x16_S1600000x144_d1 (ix2 e c) = hd (ix2 e k) := by
  refine concatenate_apply_piece 1 _ _ (ix2 e c) 1 (by show (1 : ℕ) < 3; omega) S1600000x64 hd rfl rfl 64 rfl (ix2 e k) ?_ ?_
  · intro b hb
    match b with
    | ⟨0, _⟩ => rfl
    | ⟨1, _⟩ => exact absurd rfl hb
  · show 64 + k.val = c.val
    omega

/-- … at a column of the third block, counted from 128: the edge attributes. -/
theorem cat3_third (hs hd : S1600000x64.Idx → EReal) (ea : S1600000x16.Idx → EReal) (e : Fin 1600000) (k : Fin 16)
    (c : Fin 144) (hc : c.val = 64 + 64 + k.val) :
    concatenate S1600000x144 1 [⟨S1600000x64, hs⟩, ⟨S1600000x64, hd⟩, ⟨S1600000x16, ea⟩]
        concatenates_S1600000x64_S1600000x64_S1600000x16_S1600000x144_d1 (ix2 e c) = ea (ix2 e k) := by
  refine concatenate_apply_piece 1 _ _ (ix2 e c) 2 (by show (2 : ℕ) < 3; omega) S1600000x16 ea rfl rfl 128 rfl (ix2 e k) ?_ ?_
  · intro b hb
    match b with
    | ⟨0, _⟩ => rfl
    | ⟨1, _⟩ => exact absurd rfl hb
  · show 128 + k.val = c.val
    omega

/-- The inner product [1600000,144] · [144,64] is a plain rows-by-columns product: one contracted axis of extent 144, no batch axes. -/
theorem dot_S1600000x144_S144x64_S1600000x64_1_0_0_1_n_n_plain : Plain dot_S1600000x144_S144x64_S1600000x64_1_0_0_1_n_n :=
  { rank := rfl
    size := rfl
    l0 := fun j q => by
      unfold DotDims.lhsIdx
      rw [dif_neg (show ¬(0 : Fin (S1600000x144).rank) ∈ (dot_S1600000x144_S144x64_S1600000x64_1_0_0_1_n_n).lhsBatch by
            show ¬(0 : Fin 2) ∈ ([] : List (Fin 2)); decide),
        dif_pos (show (0 : Fin (S1600000x144).rank) ∈ (dot_S1600000x144_S144x64_S1600000x64_1_0_0_1_n_n).lhsNonContracting by
            show (0 : Fin 2) ∈ ([0] : List (Fin 2)); decide)]
      rfl
    l1 := fun j q => DotDims.lhsIdx_val_of_single dot_S1600000x144_S144x64_S1600000x64_1_0_0_1_n_n rfl j q
    r0 := fun j q => DotDims.rhsIdx_val_of_single dot_S1600000x144_S144x64_S1600000x64_1_0_0_1_n_n rfl j q
    r1 := fun j q => by
      unfold DotDims.rhsIdx
      rw [dif_neg (show ¬(1 : Fin (S144x64).rank) ∈ (dot_S1600000x144_S144x64_S1600000x64_1_0_0_1_n_n).rhsBatch by
            show ¬(1 : Fin 2) ∈ ([] : List (Fin 2)); decide),
        dif_pos (show (1 : Fin (S144x64).rank) ∈ (dot_S1600000x144_S144x64_S1600000x64_1_0_0_1_n_n).rhsNonContracting by
            show (1 : Fin 2) ∈ ([1] : List (Fin 2)); decide)]
      rfl }

/-- The outer product [1600000,64] · [64,5] is a plain rows-by-columns product: one contracted axis of extent 64, no batch axes. -/
theorem dot_S1600000x64_S64x5_S1600000x5_1_0_0_1_n_n_plain : Plain dot_S1600000x64_S64x5_S1600000x5_1_0_0_1_n_n :=
  { rank := rfl
    size := rfl
    l0 := fun j q => by
      unfold DotDims.lhsIdx
      rw [dif_neg (show ¬(0 : Fin (S1600000x64).rank) ∈ (dot_S1600000x64_S64x5_S1600000x5_1_0_0_1_n_n).lhsBatch by
            show ¬(0 : Fin 2) ∈ ([] : List (Fin 2)); decide),
        dif_pos (show (0 : Fin (S1600000x64).rank) ∈ (dot_S1600000x64_S64x5_S1600000x5_1_0_0_1_n_n).lhsNonContracting by
            show (0 : Fin 2) ∈ ([0] : List (Fin 2)); decide)]
      rfl
    l1 := fun j q => DotDims.lhsIdx_val_of_single dot_S1600000x64_S64x5_S1600000x5_1_0_0_1_n_n rfl j q
    r0 := fun j q => DotDims.rhsIdx_val_of_single dot_S1600000x64_S64x5_S1600000x5_1_0_0_1_n_n rfl j q
    r1 := fun j q => by
      unfold DotDims.rhsIdx
      rw [dif_neg (show ¬(1 : Fin (S64x5).rank) ∈ (dot_S1600000x64_S64x5_S1600000x5_1_0_0_1_n_n).rhsBatch by
            show ¬(1 : Fin 2) ∈ ([] : List (Fin 2)); decide),
        dif_pos (show (1 : Fin (S64x5).rank) ∈ (dot_S1600000x64_S64x5_S1600000x5_1_0_0_1_n_n).rhsNonContracting by
            show (1 : Fin 2) ∈ ([1] : List (Fin 2)); decide)]
      rfl }

/-- **The reference's last stage at entry (e, j)** is the edge classifier's score function of its seven operands. -/
theorem ref_tail (hs hd : (⟨S1600000x64, .f32⟩ : BufTy).Contents (Elt Ideal)) (ea : (⟨S1600000x16, .f32⟩ : BufTy).Contents (Elt Ideal))
    (Wc1 : (⟨S144x64, .f32⟩ : BufTy).Contents (Elt Ideal)) (bc1 : (⟨S64, .f32⟩ : BufTy).Contents (Elt Ideal))
    (Wc2 : (⟨S64x5, .f32⟩ : BufTy).Contents (Elt Ideal)) (bc2 : (⟨S5, .f32⟩ : BufTy).Contents (Elt Ideal)) (e : Fin 1600000) (j : Fin 5) :
    (addf (F := Ideal) (Host.dotGeneral (F := Ideal) (φ₁ := .f32) (φ₂ := .f32) dot_S1600000x64_S64x5_S1600000x5_1_0_0_1_n_n none
        (maximumf (F := Ideal)
          (addf (F := Ideal) (Host.dotGeneral (F := Ideal) (φ₁ := .f32) (φ₂ := .f32) dot_S1600000x144_S144x64_S1600000x64_1_0_0_1_n_n none
              (concatenate S1600000x144 1 [⟨S1600000x64, hs⟩, ⟨S1600000x64, hd⟩, ⟨S1600000x16, ea⟩] concatenates_S1600000x64_S1600000x64_S1600000x16_S1600000x144_d1)
              Wc1)
            (broadcastInDim S1600000x64 ![0, 1] bcast_S1x64_S1600000x64_0_1 (broadcastInDim S1x64 ![1] bcast_S64_S1x64_1 bc1)))
          (broadcastInDim S1600000x64 ![] bcast_S_S1600000x64 (constant (F := Ideal) S_ .f32 0x00000000#32)))
        Wc2)
      (broadcastInDim S1600000x5 ![0, 1] bcast_S1x5_S1600000x5_0_1 (broadcastInDim S1x5 ![1] bcast_S5_S1x5_1 bc2))) (ix2 e j)
    = Cert.Bridge.edgeOut hs hd ea Wc1 bc1 Wc2 bc2 e j := by
  -- both products are plain rows-by-columns products
  have hD1 := dot_S1600000x144_S144x64_S1600000x64_1_0_0_1_n_n_plain
  have hD2 := dot_S1600000x64_S64x5_S1600000x5_1_0_0_1_n_n_plain
  -- the outer layer: Σ_q hidden[e,q]·Wc2[q,j] + bc2[j]
  refine (dense_apply hD2 _ Wc2 bc2 bcast_S5_S1x5_1 bcast_S1x5_S1600000x5_0_1 e j).trans ?_
  unfold edgeOut
  refine congrArg (fun s => s + bc2 (ix1 j)) (Finset.sum_congr rfl fun q _ => ?_)
  refine congrArg (fun x => x * Wc2 (ix2 q j)) ?_
  -- the ramp: the larger of the inner layer's entry and the zero word
  rw [maximumf_apply]
  unfold hidden
  refine congrArg₂ max ?_ ?_
  · -- the inner layer: Σ_{c<144} cat[e,c]·Wc1[c,q] + bc1[q], the sum cut into its three blocks
    refine (dense_apply hD1 _ Wc1 bc1 bcast_S64_S1x64_1 bcast_S1x64_S1600000x64_0_1 e q).trans ?_
    unfold preact
    refine congrArg (fun s => s + bc1 (ix1 q)) ?_
    refine (sum_three 64 64 16 (fun c : Fin (64 + 64 + 16) =>
      concatenate S1600000x144 1 [⟨S1600000x64, hs⟩, ⟨S1600000x64, hd⟩, ⟨S1600000x16, ea⟩]
          concatenates_S1600000x64_S1600000x64_S1600000x16_S1600000x144_d1 (ix2 e c) * Wc1 (ix2 c q))).trans ?_
    refine congrArg₂ (fun a b => a + b) (congrArg₂ (fun a b => a + b) ?_ ?_) ?_
    · refine Finset.sum_congr rfl fun k _ => ?_
      exact congrArg (fun x => x * Wc1 (ix2 (⟨k.val, by omega⟩ : Fin 144) q))
        (cat3_first hs hd ea e k ⟨k.val, by omega⟩ rfl)
    · refine Finset.sum_congr rfl fun k _ => ?_
      exact congrArg (fun x => x * Wc1 (ix2 (⟨64 + k.val, by omega⟩ : Fin 144) q))
        (cat3_second hs hd ea e k ⟨64 + k.val, by omega⟩ rfl)
    · refine Finset.sum_congr rfl fun k _ => ?_
      exact congrArg (fun x => x * Wc1 (ix2 (⟨64 + 64 + k.val, by omega⟩ : Fin 144) q))
        (cat3_third hs hd ea e k ⟨64 + 64 + k.val, by omega⟩ rfl)
  · -- the zero splat reads the zero word everywhere
    exact (broadcastInDim_apply ![] bcast_S_S1600000x64 _ (ix2 e q) ix0 (fun a => a.elim0)).trans (constant_apply _ _)

end Cert.Bridge

end
-- ==== Proof.GraphR.lean ====
/-
  The graph side of the network, as named functions of whole arrays, in the reference program's own spelling of its shapes and
  dimension numbers.

  The edge list is a [2, 1600000] table of words: row 0 the sources, row 1 the destinations. A self-loop is appended for each of
  the 100000 nodes. The degree of a node is the number of destination words (self-loops included) that name it; the weight of
  an edge is rsqrt(degree at its source) · rsqrt(degree at its destination), sources and destinations read after jnp's move of
  negative words; a graph convolution gathers each edge's source row of the layer's linear image, scales it by the edge's
  weight, adds it into its destination's row, and adds the bias. The edge classifier reads the convolved rows at each edge's
  two ends. Each definition below is one line of that, so that later statements stay small.
-/
import proofs.«104207_j25220047962748_2_alg».proof.ReferenceIdeal
import Idealize.ShloMosaic.PureOps.Ideal

noncomputable section

namespace Cert.Bridge.R

open Cert.ReferenceIdeal Cert.ReferenceIdeal.Facts₀ Cert.ReferenceIdeal.Facts Idealize.ShloMosaic

variable [Cert.ReferenceIdeal.Facts]

/-- The source words. -/
def srcW (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
/-- The destination words. -/
def dstW (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000
/-- A word list with the self-loops appended. -/
def withLoops (v : (⟨S1600000, .i32⟩ : BufTy).Contents (Elt Ideal)) : (⟨S1700000, .i32⟩ : BufTy).Contents (Elt Ideal) :=
  concatenate S1700000 0 [⟨S1600000, v⟩, ⟨S100000, iotaInDim S100000 32 0⟩] concatenates_S1600000_S100000_S1700000_d0
/-- jnp's move of negative words (w < 0 ↦ w + 100000) on the long list, as a column of start indices. -/
def startsN (v : (⟨S1700000, .i32⟩ : BufTy).Contents (Elt Ideal)) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)
/-- The same on the edge list proper. -/
def startsE (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The destination words as the scatter's index column (unmoved: a negative word is dropped). -/
def targets (ei : (⟨S2x1600000, .i32⟩ : BufTy).Contents (Elt Ideal)) : (⟨S1700000x1, .i32⟩ : BufTy).Contents (Elt Ideal) :=
  broadcastInDim S1700000x1 ![0] bcast_S1700000_S1700000x1_0 (withLoops (dstW ei))
/-- The degree: ones added at every destination word. -/
def degree (ei : (⟨S2x1600000, .i32⟩ : BufTy).Contents (Elt Ideal)) : (⟨S100000, .f32⟩ : BufTy).Contents (Elt Ideal) :=
  Host.scatterAdd (F := Ideal) (φ := .f32) scatter_S100000_S1700000x1_S1700000_n_0_0_1
    (broadcastInDim S100000 ![] bcast_S_S100000 (constant (F := Ideal) S_ .f32 0x00000000#32))
    (targets ei)
    (broadcastInDim S1700000 ![] bcast_S_S1700000 (constant (F := Ideal) S_ .f32 0x3F800000#32))
/-- The edge weights from a degree table. -/
def weights (dg : (⟨S100000, .f32⟩ : BufTy).Contents (Elt Ideal)) (ei : (⟨S2x1600000, .i32⟩ : BufTy).Contents (Elt Ideal)) :
    (⟨S1700000, .f32⟩ : BufTy).Contents (Elt Ideal) :=
  mulf (F := Ideal) (φ := .f32)
    (Host.gather gather_S100000_S1700000x1_S1700000_n_0_n_n_0_1_1 (Host.rsqrt (F := Ideal) (φ := .f32) dg) (startsN (withLoops (srcW ei))))
    (Host.gather gather_S100000_S1700000x1_S1700000_n_0_n_n_0_1_1 (Host.rsqrt (F := Ideal) (φ := .f32) dg) (startsN (withLoops (dstW ei))))
/-- One graph convolution's aggregation of a linear image, and its bias. -/
def aggregate (ei : (⟨S2x1600000, .i32⟩ : BufTy).Contents (Elt Ideal)) (nrm : (⟨S1700000, .f32⟩ : BufTy).Contents (Elt Ideal))
    (lin : (⟨S100000x64, .f32⟩ : BufTy).Contents (Elt Ideal)) (b : (⟨S64, .f32⟩ : BufTy).Contents (Elt Ideal)) :
    (⟨S100000x64, .f32⟩ : BufTy).Contents (Elt Ideal) :=
  addf (F := Ideal) (φ := .f32)
    (Host.scatterAdd (F := Ideal) (φ := .f32) scatter_S100000x64_S1700000x1_S1700000x64_1_0_0_1
      (broadcastInDim S100000x64 ![] bcast_S_S100000x64 (constant (F := Ideal) S_ .f32 0x00000000#32))
      (targets ei)
      (mulf (F := Ideal) (φ := .f32) (Host.gather gather_S100000x64_S1700000x1_S1700000x64_1_0_n_n_0_1_164 lin (startsN (withLoops (srcW ei))))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))
/-- The ramp on a node table. -/
def ramp (x : (⟨S100000x64, .f32⟩ : BufTy).Contents (Elt Ideal)) : (⟨S100000x64, .f32⟩ : BufTy).Contents (Elt Ideal) :=
  maximumf (F := Ideal) (φ := .f32) x (broadcastInDim S100000x64 ![] bcast_S_S100000x64 (constant (F := Ideal) S_ .f32 0x00000000#32))

end Cert.Bridge.R

end
-- ==== Proof.RefValue.lean ====
/-
  The reference's whole result read at an entry.

  The reference computes two graph convolutions on the node table and then classifies each edge from the convolved rows at
  its two ends and its own attributes. The graph part is kept as named functions of whole arrays: the first convolution's
  node table h1 = ramp(aggregate(x · w1) + b1), the second h2 = aggregate(h1 · w2) + b2, and the rows of a node table read
  at a list of node words. The program's result is, as a whole array, the last stage applied to the rows of h2 at the
  sources, the rows of h2 at the destinations, the edge attributes and the classifier's weights: the two terms are the same
  tree. Read at (e, j) the last stage is the edge classifier's score function.
-/
import proofs.«104207_j25220047962748_2_alg».proof.Proof.RefTail
import proofs.«104207_j25220047962748_2_alg».proof.Proof.Gen.ReferenceIdeal.Run
import proofs.«104207_j25220047962748_2_alg».proof.Proof.GraphR

noncomputable section

namespace Cert.Bridge.R

open Cert.ReferenceIdeal Cert.ReferenceIdeal.Facts₀ Cert.ReferenceIdeal.Facts Cert.ReferenceIdeal.Value
open Idealize.ShloMosaic Idealize.ShloMosaic.ValueIdx Idealize.ShloMosaic.TcCoe Idealize.SL.Sem

variable [Cert.ReferenceIdeal.Facts]

/-- The first convolution's node table: the ramp of the aggregated linear image x · w1, plus bias. -/
def h1 (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal)) :
    (⟨S100000x64, .f32⟩ : BufTy).Contents (Elt Ideal) :=
  ramp (aggregate ei (weights (degree ei) ei)
    (Host.dotGeneral (F := Ideal) (φ₁ := .f32) (φ₂ := .f32) dot_S100000x32_S32x64_S100000x64_1_0_0_1_n_n none x w1) b1)

/-- The second convolution's node table: the aggregated linear image h1 · w2, plus bias (no ramp). -/
def h2 (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S100000x64, .f32⟩ : BufTy).Contents (Elt Ideal) :=
  aggregate ei (weights (degree ei) ei)
    (Host.dotGeneral (F := Ideal) (φ₁ := .f32) (φ₂ := .f32) dot_S100000x64_S64x64_S100000x64_1_0_0_1_n_n none (h1 x ei w1 b1) w2) b2

/-- The rows of a node table at a list of node words (a negative word w is read as w + 100000). -/
def rowsAt (h : (⟨S100000x64, .f32⟩ : BufTy).Contents (Elt Ideal)) (v : (⟨S1600000, .i32⟩ : BufTy).Contents (Elt Ideal)) :
    (⟨S1600000x64, .f32⟩ : BufTy).Contents (Elt Ideal) :=
  Host.gather gather_S100000x64_S1600000x1_S1600000x64_1_0_n_n_0_1_164 h (startsE v)

/-- The last stage as a function of whole arrays: relu(concat([hs, hd, ea], axis 1) · Wc1 + bc1) · Wc2 + bc2. -/
def lastStage (hs hd : (⟨S1600000x64, .f32⟩ : BufTy).Contents (Elt Ideal)) (ea : (⟨S1600000x16, .f32⟩ : BufTy).Contents (Elt Ideal))
    (Wc1 : (⟨S144x64, .f32⟩ : BufTy).Contents (Elt Ideal)) (bc1 : (⟨S64, .f32⟩ : BufTy).Contents (Elt Ideal))
    (Wc2 : (⟨S64x5, .f32⟩ : BufTy).Contents (Elt Ideal)) (bc2 : (⟨S5, .f32⟩ : BufTy).Contents (Elt Ideal)) :
    (⟨S1600000x5, .f32⟩ : BufTy).Contents (Elt Ideal) :=
  addf (F := Ideal) (Host.dotGeneral (F := Ideal) (φ₁ := .f32) (φ₂ := .f32) dot_S1600000x64_S64x5_S1600000x5_1_0_0_1_n_n none
      (maximumf (F := Ideal)
        (addf (F := Ideal) (Host.dotGeneral (F := Ideal) (φ₁ := .f32) (φ₂ := .f32) dot_S1600000x144_S144x64_S1600000x64_1_0_0_1_n_n none
            (concatenate S1600000x144 1 [⟨S1600000x64, hs⟩, ⟨S1600000x64, hd⟩, ⟨S1600000x16, ea⟩] concatenates_S1600000x64_S1600000x64_S1600000x16_S1600000x144_d1)
            Wc1)
          (broadcastInDim S1600000x64 ![0, 1] bcast_S1x64_S1600000x64_0_1 (broadcastInDim S1x64 ![1] bcast_S64_S1x64_1 bc1)))
        (broadcastInDim S1600000x64 ![] bcast_S_S1600000x64 (constant (F := Ideal) S_ .f32 0x00000000#32)))
      Wc2)
    (broadcastInDim S1600000x5 ![0, 1] bcast_S1x5_S1600000x5_0_1 (broadcastInDim S1x5 ![1] bcast_S5_S1x5_1 bc2))

/-- The program's result as a whole array: the last stage of the second convolution's rows at the two ends of each edge. -/
theorem res_eq (m : (ℓ : Loc nD τ sig) → Buf (Elt Ideal) ℓ) (c : Dev nD) :
    (res_main_v108 (F := Ideal) m c : (⟨S1600000x5, .f32⟩ : BufTy).Contents (Elt Ideal))
      = lastStage
          (rowsAt (h2 (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6)))
            (srcW (m ((c.tc : Thread nD τ).loc main_arg1))))
          (rowsAt (h2 (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6)))
            (dstW (m ((c.tc : Thread nD τ).loc main_arg1))))
          (m ((c.tc : Thread nD τ).loc main_arg2)) (m ((c.tc : Thread nD τ).loc main_arg7))
          (m ((c.tc : Thread nD τ).loc main_arg8)) (m ((c.tc : Thread nD τ).loc main_arg9))
          (m ((c.tc : Thread nD τ).loc main_arg10)) := by
  unfold res_main_v108 lastStage rowsAt h2 h1 ramp aggregate weights degree targets startsE startsN withLoops srcW dstW
  with_reducible rfl

/-- **The reference's result at entry (e, j)**: the edge classifier's score function of the second convolution's rows at
    the edge's source and destination, the edge's attributes, and the classifier's weights and biases. -/
theorem res_apply (m : (ℓ : Loc nD τ sig) → Buf (Elt Ideal) ℓ) (c : Dev nD) (e : Fin 1600000) (j : Fin 5) :
    res_main_v108 (F := Ideal) m c (ix2 e j)
      = Cert.Bridge.edgeOut
          (rowsAt (h2 (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6)))
            (srcW (m ((c.tc : Thread nD τ).loc main_arg1))))
          (rowsAt (h2 (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6)))
            (dstW (m ((c.tc : Thread nD τ).loc main_arg1))))
          (m ((c.tc : Thread nD τ).loc main_arg2)) (m ((c.tc : Thread nD τ).loc main_arg7))
          (m ((c.tc : Thread nD τ).loc main_arg8)) (m ((c.tc : Thread nD τ).loc main_arg9))
          (m ((c.tc : Thread nD τ).loc main_arg10)) e j := by
  refine (congrFun (res_eq m c) (ix2 e j)).trans ?_
  unfold lastStage
  exact Cert.Bridge.ref_tail _ _ _ _ _ _ _ e j

end Cert.Bridge.R

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.LibIndexWords.lean ====
/-
  Index words and node weights of a gather / scatter pipeline, read at an index.

  * An index vector [E] viewed as a column [E, 1] (what a gather or scatter takes as its start indices) reads at (e, u)
    the vector at e; a column [E, 1] broadcast along its rows to [E, D] reads at (e, j) the column's entry of row e.
  * Indexing first moves a negative index word up by the table's height N (select (w < 0) (w + N) w), then the
    gather clamps the word into [0, N − 1]; a scatter instead drops a word outside [0, N). A word a scatter accepts
    for row n — its signed value is n, in range — is therefore read by a gather, after the move, at row n too.
  * A node weight of the form  select cond (rsqrt (max deg 1)) 0  is a nonnegative real number whatever the extended
    real deg and the condition: max deg 1 is at least 1, the reciprocal square root of a real at least 1 is a positive
    real, and of +∞ it is 0.
-/
import Idealize.ShloMosaic.PureOps.Ideal
import Idealize.ShloMosaic.Lib.Pipeline.Value
import Idealize.ShloMosaic.Lib.ValueIdx
import Idealize.ShloMosaic.Lib.ValueLayout
import proofs.«104207_j25220047962748_2_alg».proof.Proof.LibSegmentSum

noncomputable section

namespace Cert.IndexWords

open Idealize.ShloMosaic Idealize.ShloMosaic.ValueIdx Cert.SegmentSum

variable {α : Type}

/-- A vector [E] as a column [E, 1], at (e, u): the vector at e. -/
theorem column_apply {E : ℕ} (w : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h w (ix2 e u) = w (ix1 e) :=
  broadcastInDim_apply ![0] h w (ix2 e u) (ix1 e) (fun a => by
    match a with
    | ⟨0, _⟩ =>
      show e.val = if E = 1 then 0 else e.val
      split
      · have := e.isLt; omega
      · rfl)

/-- A column [E, 1] broadcast along its rows to [E, D], at (e, j): the column's entry of row e. -/
theorem rows_apply {E D : ℕ} (v : (⟨2, ![E, 1]⟩ : Shape).Idx → α)
    (h : (⟨2, ![E, 1]⟩ : Shape).BroadcastsInDim ⟨2, ![E, D]⟩ ![0, 1]) (e : Fin E) (j : Fin D) :
    broadcastInDim ⟨2, ![E, D]⟩ ![0, 1] h v (ix2 e j) = v (ix2 e (0 : Fin 1)) :=
  broadcastInDim_apply ![0, 1] h v (ix2 e j) (ix2 e (0 : Fin 1)) (fun a => by
    match a with
    | ⟨0, _⟩ =>
      show e.val = if E = 1 then 0 else e.val
      split
      · have := e.isLt; omega
      · rfl
    | ⟨1, _⟩ => rfl)

/-- A scalar broadcast to a whole shape reads the scalar everywhere. -/
theorem splat_apply {t : Shape} (x : (⟨0, ![]⟩ : Shape).Idx → α) (h0 : (⟨0, ![]⟩ : Shape).BroadcastsInDim t ![]) (i : t.Idx) :
    broadcastInDim t ![] h0 x i = x ix0 :=
  broadcastInDim_apply ![] h0 x i ix0 (fun a => a.elim0)

/-- The row of a table of N rows a gather reads for an index word: the word's signed value clamped into [0, N − 1]. -/
def clampRow (N : ℕ) (hN : 0 < N) (w : BitVec 32) : Fin N := ⟨min w.toInt.toNat (N - 1), by omega⟩

/-- A word a scatter accepts for row n is, after the move of negative words, read by a gather at row n. -/
theorem clampRow_normalized_of_target {N : ℕ} (hN : 0 < N) (k w : BitVec 32) (n : Fin N)
    (ht : rowTarget N w = some n) :
    clampRow N hN (Scalar.select (IntOp.cmpi .slt w 0#32) (IntOp.addi w k) w) = n := by
  unfold rowTarget at ht
  split at ht
  · next hr =>
    have hn : n = ⟨w.toInt.toNat, by omega⟩ := (Option.some.inj ht).symm
    have hslt : w.slt 0#32 = false := by
      rw [BitVec.slt_eq_decide]
      simp only [BitVec.toInt_zero, decide_eq_false_iff_not, not_lt]
      exact hr.1
    have hc : IntOp.cmpi .slt w 0#32 = 0#1 := by
      show BitVec.ofBool (w.slt 0#32) = 0#1
      rw [hslt]; rfl
    rw [hc, hn]
    show clampRow N hN (if (0#1 : BitVec 1) = 1 then IntOp.addi w k else w) = _
    rw [if_neg (by decide)]
    unfold clampRow
    refine Fin.ext ?_
    show min w.toInt.toNat (N - 1) = w.toInt.toNat
    omega
  · exact absurd ht (by simp)

/-! ## Gathers and scatter-adds whose start indices are an index vector viewed as a column -/

/-- A row gather at an index vector: row e of the result is the table's row at the clamped word of e. -/
theorem gather_rows_column {N E D : ℕ} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (w : IVec ⟨1, ![E]⟩ 32)
    (h : (⟨1, ![E]⟩ : Shape).BroadcastsInDim ⟨2, ![E, 1]⟩ ![0]) (e : Fin E) (j : Fin D) :
    Host.gather g x (broadcastInDim ⟨2, ![E, 1]⟩ ![0] h w) (ix2 e j) = x (ix2 (clampRow N hN (w (ix1 e))) j) := by
  refine (gather_rows_apply hN g ho hc hob hsb hm hv hss x _ e j).trans ?_
  show x (ix2 (clampRow N hN (broadcastInDim ⟨2, ![E, 1]⟩ ![0] h w (ix2 e 0))) j) = _
  rw [column_apply]

/-- A gather from a flat table at an index vector. -/
theorem gather_table_column {N E : ℕ} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (w : IVec ⟨1, ![E]⟩ 32)
    (h : (⟨1, ![E]⟩ : Shape).BroadcastsInDim ⟨2, ![E, 1]⟩ ![0]) (e : Fin E) :
    Host.gather g x (broadcastInDim ⟨2, ![E, 1]⟩ ![0] h w) (ix1 e) = x (ix1 (clampRow N hN (w (ix1 e)))) := by
  refine (gather_table_apply hN g ho hc hob hsb hm hv hss x _ e).trans ?_
  show x (ix1 (clampRow N hN (broadcastInDim ⟨2, ![E, 1]⟩ ![0] h w (ix2 e 0)))) = _
  rw [column_apply]

/-- The messages a scatter at the index vector w delivers to row n. -/
def arriving {E : ℕ} (N : ℕ) (w : IVec ⟨1, ![E]⟩ 32) (n : Fin N) : Finset (Fin E) :=
  Finset.univ.filter fun e : Fin E => rowTarget N (w (ix1 e)) = some n

/-- A scatter-add of rows at an index vector: entry (n, j) is the operand's plus column j of every update row whose word
    addresses row n. -/
theorem scatterAdd_rows_column {N E D : ℕ} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (w : IVec ⟨1, ![E]⟩ 32)
    (h : (⟨1, ![E]⟩ : Shape).BroadcastsInDim ⟨2, ![E, 1]⟩ ![0])
    (upd : (⟨2, ![E, D]⟩ : Shape).Idx → EReal) (n : Fin N) (j : Fin D) :
    Host.scatterAdd (F := Ideal) (φ := .f32) d x (broadcastInDim ⟨2, ![E, 1]⟩ ![0] h w) upd (ix2 n j)
      = x (ix2 n j) + ∑ e ∈ arriving N w n, upd (ix2 e j) := by
  show Ideal.hostScatterAdd d x _ upd (ix2 n j) = _
  rw [hostScatterAdd_rows_apply _ j d hu hi hs hv x upd n]
  unfold arriving
  refine congrArg _ (Finset.sum_congr (Finset.filter_congr fun e _ => by rw [column_apply]) fun _ _ => rfl)

/-- The float word 0x3F800000 is the number one. -/
theorem ofBits_one_f32 : Ideal.ofBits .f32 0x3F800000#32 = 1 := by
  have h1 : Ideal.ofBits .f32 0x3F800000#32 = ((1 : ℝ) : EReal) := by
    simp [Ideal.ofBits, Ideal.ieee, -EReal.coe_mul]
    norm_num
  rw [h1, EReal.coe_one]

/-- A node weight  select cond (rsqrt (max deg 1)) 0  is a nonnegative real number. -/
theorem weight_nonneg_ne_top (deg : EReal) (cond : BitVec 1) :
    0 ≤ Scalar.select cond (Ideal.rsqrt (max deg (Ideal.ofBits .f32 0x3F800000#32))) (Ideal.ofBits .f32 0x00000000#32)
      ∧ Scalar.select cond (Ideal.rsqrt (max deg (Ideal.ofBits .f32 0x3F800000#32))) (Ideal.ofBits .f32 0x00000000#32) ≠ ⊤ := by
  have h1 : Ideal.ofBits .f32 0x3F800000#32 = ((1 : ℝ) : EReal) := by
    simp [Ideal.ofBits, Ideal.ieee, -EReal.coe_mul]
    norm_num
  have h0 : Ideal.ofBits .f32 0x00000000#32 = 0 := Ideal.ofBits_zero_f32
  rw [h1, h0]
  have hr : 0 ≤ Ideal.rsqrt (max deg ((1 : ℝ) : EReal)) ∧ Ideal.rsqrt (max deg ((1 : ℝ) : EReal)) ≠ ⊤ := by
    have hge : ((1 : ℝ) : EReal) ≤ max deg ((1 : ℝ) : EReal) := le_max_right _ _
    generalize max deg ((1 : ℝ) : EReal) = v at hge
    induction v using EReal.rec with
    | bot => exact absurd (le_bot_iff.mp hge) (EReal.coe_ne_bot 1)
    | top => rw [Ideal.rsqrt_top]; exact ⟨le_refl _, EReal.zero_ne_top⟩
    | coe r =>
      have hr1 : (1 : ℝ) ≤ r := EReal.coe_le_coe_iff.mp hge
      have hr0 : 0 < r := by linarith
      rw [Ideal.rsqrt_coe, if_neg (not_lt.mpr hr0.le), if_neg hr0.ne']
      refine ⟨EReal.coe_nonneg.mpr (inv_nonneg.mpr (Real.sqrt_nonneg r)), EReal.coe_ne_top _⟩
  show 0 ≤ (if cond = 1 then _ else (0 : EReal)) ∧ (if cond = 1 then _ else (0 : EReal)) ≠ ⊤
  split
  · exact hr
  · exact ⟨le_refl _, EReal.zero_ne_top⟩

end Cert.IndexWords

end
-- ==== Proof.DegreeClamp.lean ====
import proofs.«104207_j25220047962748_2_alg».proof.KernelIdeal
import proofs.«104207_j25220047962748_2_alg».proof.Proof.LibSegmentSum
import proofs.«104207_j25220047962748_2_alg».proof.Proof.LibIndexWords
import Idealize.ShloMosaic.Lib.WordArith

/-!
# Every node's degree is at least one

The degree of a node is its in-degree with self-loops, computed as a scatter-add of ones into a table of zeros: the
index vector is the edges' destination words followed by the numbers 0, 1, …, 99999 of the nodes themselves (one
self-loop per node). Whatever the destination words are (a word that addresses no node is dropped), node `n` receives
the one sent from the position of its own self-loop, and every other contribution is a one, which is not negative. So
the degree is at least one, and taking its maximum with one changes nothing.
-/

noncomputable section

open scoped BigOperators

namespace Cert.Bridge

open Cert.KernelIdeal Idealize.ShloMosaic Idealize.ShloMosaic.ValueIdx Cert.SegmentSum Cert.IndexWords

variable [Facts₀]
open Facts₀

/-- The position of node `n`'s self-loop in the index vector: the destination words come first, the self-loops after
    them. -/
def selfLoop (n : Fin 100000) : Fin 1700000 := ⟨n.val + 1600000, by have := n.isLt; omega⟩

/-- At the position of its self-loop the index vector holds the node's own number. -/
theorem selfLoop_word (a : (⟨S1600000, .i32⟩ : BufTy).Contents (Elt Ideal)) (n : Fin 100000) :
    concatenate S1700000 0 [⟨S1600000, a⟩, ⟨S100000, iotaInDim S100000 32 0⟩]
        concatenates_S1600000_S100000_S1700000_d0 (ix1 (selfLoop n))
      = BitVec.ofNat 32 n.val := by
  have h : concatenate S1700000 0 [⟨S1600000, a⟩, ⟨S100000, iotaInDim S100000 32 0⟩]
        concatenates_S1600000_S100000_S1700000_d0 (ix1 (selfLoop n))
      = iotaInDim S100000 32 0 (ix1 n) := by
    refine concatenate_pair_apply_right (t := S1700000) (s₁ := S1600000) (s₂ := S100000) (0 : Fin 1) a
      (iotaInDim S100000 32 0) concatenates_S1600000_S100000_S1700000_d0 (ix1 (selfLoop n)) rfl rfl (ix1 n) ?_ ?_
    · intro b hb
      exact absurd (Subsingleton.elim _ _) hb
    · show n.val + 1600000 = n.val + 1600000
      rfl
  exact h

/-- A node number below the table's height (itself at most 2³¹), written as a 32-bit word, addresses that node's
    row. -/
theorem rowTarget_ofNat {N : ℕ} (hN : N ≤ 2 ^ 31) (n : Fin N) : rowTarget N (BitVec.ofNat 32 n.val) = some n := by
  have hlt := n.isLt
  have h : (BitVec.ofNat 32 n.val).toInt = (n.val : Int) := WordArith.toInt_ofNat_small n.val (by omega)
  unfold rowTarget
  rw [dif_pos (by rw [h]; omega)]
  refine congrArg some (Fin.ext ?_)
  show (BitVec.ofNat 32 n.val).toInt.toNat = n.val
  rw [h]
  exact Int.toNat_natCast _

/-- A scatter-add of ones into a flat table is at least one at every entry that holds zero before and that some
    update's index word addresses: the sum it adds there contains that update's one, and its other terms are ones
    too, hence not negative. -/
theorem one_le_scatterAdd_ones {N E : ℕ} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ 32) (upd : (⟨1, ![E]⟩ : Shape).Idx → EReal)
    (n : Fin N) (e : Fin E) (hx : x (ix1 n) = 0) (hupd : ∀ j, upd j = 1)
    (he : rowTarget N (idx (ix2 e 0)) = some n) :
    (1 : EReal) ≤ Host.scatterAdd (F := Ideal) (φ := .f32) d x idx upd (ix1 n) := by
  show (1 : EReal) ≤ Ideal.hostScatterAdd d x idx upd (ix1 n)
  rw [hostScatterAdd_table_apply idx d hu hi hs hv x upd n, hx, zero_add]
  refine le_trans (le_of_eq (hupd (ix1 e)).symm) ?_
  exact Finset.single_le_sum (f := fun e' : Fin E => upd (ix1 e'))
    (fun e' _ => le_trans zero_le_one (le_of_eq (hupd (ix1 e')).symm))
    (Finset.mem_filter.mpr ⟨Finset.mem_univ e, he⟩)

/-- The degree of every node is at least one: the sum that the scatter-add delivers to node `n` contains the one of
    the node's own self-loop. -/
theorem one_le_degree (a : (⟨S1600000, .i32⟩ : BufTy).Contents (Elt Ideal)) (n : Fin 100000) :
    (1 : EReal) ≤
      Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0
          (concatenate S1700000 0 [⟨S1600000, a⟩, ⟨S100000, iotaInDim S100000 32 0⟩]
            concatenates_S1600000_S100000_S1700000_d0))
        (broadcastInDim S1700000 ![] bcast_S_S1700000 (constant (F := Ideal) S_ .f32 0x3F800000#32))
        (ix1 n) := by
  -- the updates are all one
  have hu : ∀ j, broadcastInDim S1700000 ![] bcast_S_S1700000 (constant (F := Ideal) S_ .f32 0x3F800000#32) j
      = (1 : EReal) := fun j => (splat_apply _ _ j).trans ofBits_one_f32
  -- the table starts at zero
  have hx : ∀ j, broadcastInDim S100000 ![] bcast_S_S100000 (constant (F := Ideal) S_ .f32 0x00000000#32) j
      = (0 : EReal) := fun j => (splat_apply _ _ j).trans Ideal.ofBits_zero_f32
  -- the word at the position of the self-loop addresses node n
  have hw : rowTarget 100000
      (broadcastInDim S1700000x1 ![0] bcast_S1700000_S1700000x1_0
        (concatenate S1700000 0 [⟨S1600000, a⟩, ⟨S100000, iotaInDim S100000 32 0⟩]
          concatenates_S1600000_S100000_S1700000_d0) (ix2 (selfLoop n) 0)) = some n := by
    rw [column_apply, selfLoop_word]
    exact rowTarget_ofNat (by norm_num) n
  exact one_le_scatterAdd_ones (N := 100000) (E := 1700000) scatter_S100000_S1700000x1_S1700000_n_0_0_1
    rfl rfl rfl rfl _ _ _ n (selfLoop n) (hx _) hu hw

/-- CLAMPING THE DEGREE BELOW AT ONE CHANGES NOTHING: the maximum of the degree vector and the vector of ones is the
    degree vector. -/
theorem clamp_degree (a : (⟨S1600000, .i32⟩ : BufTy).Contents (Elt Ideal)) :
    maximumf (F := Ideal)
      (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0
          (concatenate S1700000 0 [⟨S1600000, a⟩, ⟨S100000, iotaInDim S100000 32 0⟩]
            concatenates_S1600000_S100000_S1700000_d0))
        (broadcastInDim S1700000 ![] bcast_S_S1700000 (constant (F := Ideal) S_ .f32 0x3F800000#32)))
      (broadcastInDim S100000 ![] bcast_S_S100000 (constant (F := Ideal) S_ .f32 0x3F800000#32))
    = Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0
          (concatenate S1700000 0 [⟨S1600000, a⟩, ⟨S100000, iotaInDim S100000 32 0⟩]
            concatenates_S1600000_S100000_S1700000_d0))
        (broadcastInDim S1700000 ![] bcast_S_S1700000 (constant (F := Ideal) S_ .f32 0x3F800000#32)) := by
  funext i
  obtain ⟨n, rfl⟩ : ∃ n : Fin 100000, i = ix1 n := ⟨i 0, eq_ix1 i⟩
  rw [maximumf_apply]
  refine max_eq_left ?_
  refine le_trans (le_of_eq ((splat_apply _ _ (ix1 n)).trans ofBits_one_f32)) (one_le_degree a n)

end Cert.Bridge

end
-- ==== Proof.BridgeSmall.lean ====
import proofs.«104207_j25220047962748_2_alg».proof.KernelIdeal
import proofs.«104207_j25220047962748_2_alg».proof.ReferenceIdeal
import proofs.«104207_j25220047962748_2_alg».proof.Proof.LibDotInnerHost
import proofs.«104207_j25220047962748_2_alg».proof.Proof.Lin0
import proofs.«104207_j25220047962748_2_alg».proof.Proof.GraphK
import proofs.«104207_j25220047962748_2_alg».proof.Proof.GraphR
import Idealize.ShloMosaic.Lib.Pipeline.Value
import Idealize.ShloMosaic.Lib.ValueIdx

/-!
# Small facts for the bridge between the two programs

Three groups, all over the extended reals.

1. The reference's two linear layers are the matrix product read entry by entry: entry (r, f) of x @ W is
   Σ_k x[r, k] · W[k, f].
2. The kernel side's small layout operations read at an entry: a block of rows of the [144, 64] weight matrix is those
   rows of the matrix; a bias vector viewed as a one-row matrix has the vector's entries in its row.
3. The graph side of the network is spelt twice, once over each program's names for its shapes and dimension numbers;
   the two spellings are the same functions.
-/

noncomputable section

open scoped BigOperators

namespace Cert.Bridge

open Idealize.ShloMosaic Idealize.ShloMosaic.ValueIdx Idealize.ShloMosaic.DotInner

/-! ## 1. The linear layers -/

/-- Dimension numbers whose lists say rows by columns (the left operand contracted on its axis 1, the right one on its
    axis 0, no batch axes) are a plain row-by-column product. -/
theorem plain_of_lists {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) : Plain D := by
  obtain ⟨lc, rc, ln, rn, lb, rb, wf⟩ := D
  dsimp only at h1 h2 h3 h4 h5 h6
  subst h1 h2 h3 h4 h5 h6
  exact
    { rank := rfl
      size := rfl
      l0 := fun j q => by
        unfold DotDims.lhsIdx
        rw [dif_neg (by decide : ¬(0 : Fin 2) ∈ ([] : List (Fin 2))),
          dif_pos (by decide : (0 : Fin 2) ∈ ([0] : List (Fin 2)))]
        rfl
      l1 := fun j q => DotDims.lhsIdx_val_of_single _ rfl j q
      r0 := fun j q => DotDims.rhsIdx_val_of_single _ rfl j q
      r1 := fun j q => by
        unfold DotDims.rhsIdx
        rw [dif_neg (by decide : ¬(1 : Fin 2) ∈ ([] : List (Fin 2))),
          dif_pos (by decide : (1 : Fin 2) ∈ ([1] : List (Fin 2)))]
        rfl }

section Linear

open Cert.ReferenceIdeal

variable [Cert.ReferenceIdeal.Facts₀]

/-- The first linear layer: x @ W over 32 input features. -/
theorem lin_eq_dot32 (x : (⟨S100000x32, .f32⟩ : BufTy).Contents (Elt Ideal))
    (w : (⟨S32x64, .f32⟩ : BufTy).Contents (Elt Ideal)) :
    lin (K := 32) x w
      = Host.dotGeneral (F := Ideal) (φ₁ := .f32) (φ₂ := .f32) dot_S100000x32_S32x64_S100000x64_1_0_0_1_n_n none x w := by
  funext i
  obtain ⟨p, f, rfl⟩ : ∃ (p : Fin 100000) (f : Fin 64), i = ix2 p f := ⟨i 0, i 1, eq_ix2 i⟩
  refine Eq.trans ?_ ((plain_of_lists (M := 100000) (K := 32) (N := 64) dot_S100000x32_S32x64_S100000x64_1_0_0_1_n_n
    rfl rfl rfl rfl rfl rfl).dotGeneral none x w p f).symm
  rfl

/-- The second linear layer: x @ W over 64 input features. -/
theorem lin_eq_dot64 (x : (⟨S100000x64, .f32⟩ : BufTy).Contents (Elt Ideal))
    (w : (⟨S64x64, .f32⟩ : BufTy).Contents (Elt Ideal)) :
    lin (K := 64) x w
      = Host.dotGeneral (F := Ideal) (φ₁ := .f32) (φ₂ := .f32) dot_S100000x64_S64x64_S100000x64_1_0_0_1_n_n none x w := by
  funext i
  obtain ⟨p, f, rfl⟩ : ∃ (p : Fin 100000) (f : Fin 64), i = ix2 p f := ⟨i 0, i 1, eq_ix2 i⟩
  refine Eq.trans ?_ ((plain_of_lists (M := 100000) (K := 64) (N := 64) dot_S100000x64_S64x64_S100000x64_1_0_0_1_n_n
    rfl rfl rfl rfl rfl rfl).dotGeneral none x w p f).symm
  rfl

end Linear

/-! ## 2. The kernel side's layout operations read at an entry -/

section KernelLayout

open Cert.KernelIdeal

/-- Rows 0 … 63 of the weight matrix. -/
theorem slice_rows_0_apply (W : (⟨S144x64, .f32⟩ : BufTy).Contents (Elt Ideal)) (h : S144x64.Slices ![0, 0] S64x64)
    (k q : Fin 64) :
    extractStridedSlice S64x64 ![0, 0] W h (ix2 k q) = W (ix2 (⟨k.val, by omega⟩ : Fin 144) q) :=
  extractStridedSlice_apply ![0, 0] W h (ix2 k q) (ix2 (⟨k.val, by omega⟩ : Fin 144) q) (fun a => by
    match a with
    | ⟨0, _⟩ => show k.val = 0 + k.val; omega
    | ⟨1, _⟩ => show q.val = 0 + q.val; omega)

/-- Rows 64 … 127 of the weight matrix. -/
theorem slice_rows_64_apply (W : (⟨S144x64, .f32⟩ : BufTy).Contents (Elt Ideal)) (h : S144x64.Slices ![64, 0] S64x64)
    (k q : Fin 64) :
    extractStridedSlice S64x64 ![64, 0] W h (ix2 k q) = W (ix2 (⟨64 + k.val, by omega⟩ : Fin 144) q) :=
  extractStridedSlice_apply ![64, 0] W h (ix2 k q) (ix2 (⟨64 + k.val, by omega⟩ : Fin 144) q) (fun a => by
    match a with
    | ⟨0, _⟩ => show 64 + k.val = 64 + k.val; rfl
    | ⟨1, _⟩ => show q.val = 0 + q.val; omega)

/-- Rows 128 … 143 of the weight matrix. -/
theorem slice_rows_128_apply (W : (⟨S144x64, .f32⟩ : BufTy).Contents (Elt Ideal)) (h : S144x64.Slices ![128, 0] S16x64)
    (k : Fin 16) (q : Fin 64) :
    extractStridedSlice S16x64 ![128, 0] W h (ix2 k q) = W (ix2 (⟨64 + 64 + k.val, by omega⟩ : Fin 144) q) :=
  extractStridedSlice_apply ![128, 0] W h (ix2 k q) (ix2 (⟨64 + 64 + k.val, by omega⟩ : Fin 144) q) (fun a => by
    match a with
    | ⟨0, _⟩ => show 64 + 64 + k.val = 128 + k.val; omega
    | ⟨1, _⟩ => show q.val = 0 + q.val; omega)

/-- A bias vector of 64 entries viewed as a one-row matrix. -/
theorem row_of_vector64_apply (b : (⟨S64, .f32⟩ : BufTy).Contents (Elt Ideal)) (h : S64.ShapeCasts S1x64) (q : Fin 64) :
    shapeCast S1x64 b h (ix2 (0 : Fin 1) q) = b (ix1 q) :=
  shapeCast_apply b h (ix2 (0 : Fin 1) q) (ix1 q) (by
    rw [Shape.rowMajor_val_two, Shape.rowMajor_val_one]; show q.val = 0 * 64 + q.val; omega)

/-- A bias vector of 5 entries viewed as a one-row matrix. -/
theorem row_of_vector5_apply (b : (⟨S5, .f32⟩ : BufTy).Contents (Elt Ideal)) (h : S5.ShapeCasts S1x5) (j : Fin 5) :
    shapeCast S1x5 b h (ix2 (0 : Fin 1) j) = b (ix1 j) :=
  shapeCast_apply b h (ix2 (0 : Fin 1) j) (ix1 j) (by
    rw [Shape.rowMajor_val_two, Shape.rowMajor_val_one]; show j.val = 0 * 5 + j.val; omega)

variable [Cert.KernelIdeal.Facts₀]
open Cert.KernelIdeal.Facts₀

/-- The same five readings at the program's own side conditions. -/
theorem slice_rows_0 (W : (⟨S144x64, .f32⟩ : BufTy).Contents (Elt Ideal)) (k q : Fin 64) :
    extractStridedSlice S64x64 ![0, 0] W slices_S144x64_S64x64_0_0 (ix2 k q) = W (ix2 (⟨k.val, by omega⟩ : Fin 144) q) :=
  slice_rows_0_apply W _ k q

theorem slice_rows_64 (W : (⟨S144x64, .f32⟩ : BufTy).Contents (Elt Ideal)) (k q : Fin 64) :
    extractStridedSlice S64x64 ![64, 0] W slices_S144x64_S64x64_64_0 (ix2 k q)
      = W (ix2 (⟨64 + k.val, by omega⟩ : Fin 144) q) :=
  slice_rows_64_apply W _ k q

theorem slice_rows_128 (W : (⟨S144x64, .f32⟩ : BufTy).Contents (Elt Ideal)) (k : Fin 16) (q : Fin 64) :
    extractStridedSlice S16x64 ![128, 0] W slices_S144x64_S16x64_128_0 (ix2 k q)
      = W (ix2 (⟨64 + 64 + k.val, by omega⟩ : Fin 144) q) :=
  slice_rows_128_apply W _ k q

theorem row_of_vector64 (b : (⟨S64, .f32⟩ : BufTy).Contents (Elt Ideal)) (q : Fin 64) :
    shapeCast S1x64 b shapeCasts_S64_S1x64 (ix2 (0 : Fin 1) q) = b (ix1 q) :=
  row_of_vector64_apply b _ q

theorem row_of_vector5 (b : (⟨S5, .f32⟩ : BufTy).Contents (Elt Ideal)) (j : Fin 5) :
    shapeCast S1x5 b shapeCasts_S5_S1x5 (ix2 (0 : Fin 1) j) = b (ix1 j) :=
  row_of_vector5_apply b _ j

end KernelLayout

/-! ## 3. The two spellings of the graph functions agree -/

section Graph

variable [Cert.KernelIdeal.Facts] [Cert.ReferenceIdeal.Facts]

theorem srcW_eq (ei : (⟨Cert.KernelIdeal.S2x1600000, .i32⟩ : BufTy).Contents (Elt Ideal)) : K.srcW ei = R.srcW ei := rfl

theorem dstW_eq (ei : (⟨Cert.KernelIdeal.S2x1600000, .i32⟩ : BufTy).Contents (Elt Ideal)) : K.dstW ei = R.dstW ei := rfl

theorem withLoops_eq (v : (⟨Cert.KernelIdeal.S1600000, .i32⟩ : BufTy).Contents (Elt Ideal)) :
    K.withLoops v = R.withLoops v := rfl

theorem startsN_eq (v : (⟨Cert.KernelIdeal.S1700000, .i32⟩ : BufTy).Contents (Elt Ideal)) :
    K.startsN v = R.startsN v := rfl

theorem startsE_eq (v : (⟨Cert.KernelIdeal.S1600000, .i32⟩ : BufTy).Contents (Elt Ideal)) :
    K.startsE v = R.startsE v := rfl

theorem targets_eq (ei : (⟨Cert.KernelIdeal.S2x1600000, .i32⟩ : BufTy).Contents (Elt Ideal)) :
    K.targets ei = R.targets ei := rfl

theorem degree_eq (ei : (⟨Cert.KernelIdeal.S2x1600000, .i32⟩ : BufTy).Contents (Elt Ideal)) :
    K.degree ei = R.degree ei := rfl

theorem weights_eq (dg : (⟨Cert.KernelIdeal.S100000, .f32⟩ : BufTy).Contents (Elt Ideal))
    (ei : (⟨Cert.KernelIdeal.S2x1600000, .i32⟩ : BufTy).Contents (Elt Ideal)) :
    K.weights dg ei = R.weights dg ei := rfl

theorem aggregate_eq (ei : (⟨Cert.KernelIdeal.S2x1600000, .i32⟩ : BufTy).Contents (Elt Ideal))
    (nrm : (⟨Cert.KernelIdeal.S1700000, .f32⟩ : BufTy).Contents (Elt Ideal))
    (l : (⟨Cert.KernelIdeal.S100000x64, .f32⟩ : BufTy).Contents (Elt Ideal))
    (b : (⟨Cert.KernelIdeal.S64, .f32⟩ : BufTy).Contents (Elt Ideal)) :
    K.aggregate ei nrm l b = R.aggregate ei nrm l b := rfl

theorem ramp_eq (x : (⟨Cert.KernelIdeal.S100000x64, .f32⟩ : BufTy).Contents (Elt Ideal)) : K.ramp x = R.ramp x := rfl

end Graph

end Cert.Bridge

end
-- ==== Proof.Bridge.lean ====
/-
  The bridge: the kernel's result at an entry is the edge classifier's score function of the reference's own operands.

  The kernel keeps its score table transposed and transposes it back at the end, so its result at (e, j) is the table at
  (j, e), which is the score of class j from edge e's three rows. That score is the same nest of sums as the reference's last
  stage once each operand is read where the kernel reads it: the three row blocks of the first weight matrix are rows k,
  64 + k and 64 + 64 + k of the matrix; a bias viewed as a one-row matrix has the bias's entries in its row; the cast of the
  attributes changes nothing over the extended reals; and the convolved rows gathered at an edge's ends are the reference's,
  because as whole arrays the kernel's two convolutions are the reference's: the two programs spell the same graph functions,
  x @ W read entry by entry is the host's product, and clamping the degree below at one changes nothing since every node's
  degree counts its own self-loop.
-/
import proofs.«104207_j25220047962748_2_alg».proof.Proof.ChainB
import proofs.«104207_j25220047962748_2_alg».proof.Proof.RefValue
import proofs.«104207_j25220047962748_2_alg».proof.Proof.DegreeClamp
import proofs.«104207_j25220047962748_2_alg».proof.Proof.BridgeSmall

set_option maxRecDepth 16384

noncomputable section

namespace Cert.Bridge

open Cert.KernelIdeal Cert.KernelIdeal.Gen Cert.KernelIdeal.Hand
open Idealize.ShloMosaic Idealize.ShloMosaic.ValueIdx

/-- The kernel's edge weights are the reference's: the degree is at least one at every node, so its maximum with one is
    the degree itself. -/
theorem nrmK_eq (ei : (⟨S2x1600000, .i32⟩ : BufTy).Contents (Elt Ideal)) : nrmK ei = R.weights (R.degree ei) ei := by
  have h : maximumf (F := Ideal) (φ := .f32) (K.degree ei)
      (broadcastInDim S100000 ![] bcast_S_S100000 (constant (F := Ideal) S_ .f32 0x3F800000#32)) = K.degree ei := by
    unfold K.degree K.targets K.withLoops
    exact clamp_degree (K.dstW ei)
  unfold nrmK
  rw [h, degree_eq, weights_eq]

/-- The first convolution's node table is the reference's. -/
theorem h1K_eq (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal)) :
    h1K x ei w1 b1 = R.h1 x ei w1 b1 := by
  unfold h1K R.h1
  rw [nrmK_eq, lin_eq_dot32, aggregate_eq, ramp_eq]

/-- The second convolution's node table is the reference's. -/
theorem h2K_eq (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    h2K x ei w1 b1 w2 b2 = R.h2 x ei w1 b1 w2 b2 := by
  unfold h2K R.h2
  rw [nrmK_eq, h1K_eq, lin_eq_dot64, aggregate_eq]

/-- The rows of a node table at a word list: the kernel gathers the cast rows, the cast is the identity over the extended
    reals, and the two programs' gathers are the same function. -/
theorem rowsK_eq (h : (⟨S100000x64, .f32⟩ : BufTy).Contents (Elt Ideal)) (v : (⟨S1600000, .i32⟩ : BufTy).Contents (Elt Ideal)) :
    (rowsK h v : S1600000x64.Idx → EReal) = R.rowsAt h v := rfl

/-- The convolved rows at the edges' sources. -/
theorem rows_src_eq (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (rowsK (h2K x ei w1 b1 w2 b2) (K.srcW ei) : S1600000x64.Idx → EReal) = R.rowsAt (R.h2 x ei w1 b1 w2 b2) (R.srcW ei) := by
  rw [h2K_eq, srcW_eq]
  exact rowsK_eq _ _

/-- The convolved rows at the edges' destinations. -/
theorem rows_dst_eq (x : (⟨S100000x32, .f32⟩ : BufTy).Contents (Elt Ideal)) (ei : (⟨S2x1600000, .i32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (rowsK (h2K x ei w1 b1 w2 b2) (K.dstW ei) : S1600000x64.Idx → EReal) = R.rowsAt (R.h2 x ei w1 b1 w2 b2) (R.dstW ei) := by
  rw [h2K_eq, dstW_eq]
  exact rowsK_eq _ _

/-- **The kernel's result at entry (e, j)** is the edge classifier's score function of the reference's convolved rows at
    the edge's two ends, the edge's attributes, and the classifier's weights and biases. -/
theorem outK_apply (x : (⟨S100000x32, .f32⟩ : BufTy).Contents (Elt Ideal)) (ei : (⟨S2x1600000, .i32⟩ : BufTy).Contents (Elt Ideal))
    (ea : (⟨S1600000x16, .f32⟩ : BufTy).Contents (Elt Ideal))
    (w1 : (⟨S32x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (wc1 : (⟨S144x64, .f32⟩ : BufTy).Contents (Elt Ideal)) (bc1 : (⟨S64, .f32⟩ : BufTy).Contents (Elt Ideal))
    (wc2 : (⟨S64x5, .f32⟩ : BufTy).Contents (Elt Ideal)) (bc2 : (⟨S5, .f32⟩ : BufTy).Contents (Elt Ideal)) (e : Fin 1600000) (j : Fin 5) :
    outK x ei ea w1 b1 w2 b2 wc1 bc1 wc2 bc2 (ix2 e j)
      = edgeOut (R.rowsAt (R.h2 x ei w1 b1 w2 b2) (R.srcW ei)) (R.rowsAt (R.h2 x ei w1 b1 w2 b2) (R.dstW ei))
          ea wc1 bc1 wc2 bc2 e j := by
  unfold outK
  -- the result at (e, j) is the transposed table at (j, e): class j's score of edge e
  rw [transpose_apply [1, 0] _ transposes_S5x1600000_S1600000x5_1_0 (ix2 e j) (ix2 j e)
    (fun b => by match b with | ⟨0, _⟩ => rfl | ⟨1, _⟩ => rfl)]
  show rowOut (rowsK (h2K x ei w1 b1 w2 b2) (K.srcW ei)) (rowsK (h2K x ei w1 b1 w2 b2) (K.dstW ei)) _ _ _ _ _ _ _ e j = _
  unfold rowOut edgeOut hidden preact
  -- the same nest of sums, operand by operand
  refine congrArg₂ (fun a b => a + b) (Finset.sum_congr rfl fun q _ => ?_) (row_of_vector5_apply bc2 _ j)
  refine congrArg (fun t => t * wc2 (ix2 q j)) ?_
  refine congrArg (fun t => max t (Ideal.ofBits .f32 0x00000000#32)) ?_
  refine congrArg₂ (fun a b => a + b)
    (congrArg₂ (fun a b => a + b) (congrArg₂ (fun a b => a + b) ?_ ?_) ?_) (row_of_vector64_apply bc1 _ q)
  · refine Finset.sum_congr rfl fun k _ => ?_
    exact congrArg₂ (fun a b => a * b) (congrFun (rows_src_eq x ei w1 b1 w2 b2) (ix2 e k)) (slice_rows_0_apply wc1 _ k q)
  · refine Finset.sum_congr rfl fun k _ => ?_
    exact congrArg₂ (fun a b => a * b) (congrFun (rows_dst_eq x ei w1 b1 w2 b2) (ix2 e k)) (slice_rows_64_apply wc1 _ k q)
  · refine Finset.sum_congr rfl fun k _ => ?_
    exact congrArg₂ (fun a b => a * b) rfl (slice_rows_128_apply wc1 _ k q)

end Cert.Bridge

end
-- ==== Proof.lean ====
/-
  The edge classifier over a graph network — two graph convolutions with self-loops and symmetric degree weights, then a
  two-layer perceptron on [source row, destination row, edge attributes] — computed by three blocked matrix kernels among host
  gathers and scatter-adds, equals its plain jnp reference over the extended reals.

  The kernel program and the reference apply the same host operations to the same edge list; they differ in four places, none of
  which changes a value over the extended reals:
  * the three linear maps run as blocked kernels whose blocks tile their arrays, each entry the same sum Σ_k x[r,k]·W[k,f] the
    host product computes (the bf16 casts are the identity, the matrix units start from the zero splat);
  * the kernel clamps the degree below at one before its reciprocal square root; with a self-loop on every node the degree is
    a sum of ones that contains the self-loop's one, so it is at least one already;
  * the reference multiplies the concatenated [source, destination, attributes] row by the whole 144-row weight matrix, the
    kernel multiplies the three parts by the three row blocks and adds the products: a sum over 144 indices split into its
    consecutive blocks of 64, 64 and 16;
  * the kernel's classifier writes its scores transposed, in two halves per block, and the host transposes them back.
  No step needs the inputs finite: only + and · are regrouped.

  The three frames: the two kernel programs' are the generated frame certificates; the reference has no kernel and its frame is
  its run with the result dropped. The idealization rewrote nothing, so `preserves` is trivial.
-/
import proofs.«104207_j25220047962748_2_alg».proof.Defs
import proofs.«104207_j25220047962748_2_alg».proof.Proof.Gen.Kernel
import proofs.«104207_j25220047962748_2_alg».proof.Proof.Gen.Kernel.Skeleton
import proofs.«104207_j25220047962748_2_alg».proof.Proof.Gen.Kernel.Launch
import proofs.«104207_j25220047962748_2_alg».proof.Proof.Gen.Kernel.Points
import proofs.«104207_j25220047962748_2_alg».proof.Proof.Gen.Kernel.Frame
import proofs.«104207_j25220047962748_2_alg».proof.Proof.Gen.KernelIdeal
import proofs.«104207_j25220047962748_2_alg».proof.Proof.Gen.KernelIdeal.Skeleton
import proofs.«104207_j25220047962748_2_alg».proof.Proof.Gen.KernelIdeal.Launch
import proofs.«104207_j25220047962748_2_alg».proof.Proof.Gen.KernelIdeal.Points
import proofs.«104207_j25220047962748_2_alg».proof.Proof.Gen.KernelIdeal.Frame
import proofs.«104207_j25220047962748_2_alg».proof.Proof.Gen.ReferenceIdeal
import proofs.«104207_j25220047962748_2_alg».proof.Proof.Gen.Pre_finite_inputs
import proofs.«104207_j25220047962748_2_alg».proof.Proof.Gen.ReferenceIdeal.Read
import proofs.«104207_j25220047962748_2_alg».proof.Proof.ChainB
import proofs.«104207_j25220047962748_2_alg».proof.Proof.RefValue
import proofs.«104207_j25220047962748_2_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the same scores: the kernel's result array is
    `outK` of the arguments, the reference's its composed term, and at every entry (edge e, class j) both are `edgeOut` of the
    convolved rows at the edge's ends. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  funext i
  obtain ⟨e, j, rfl⟩ : ∃ (e : Fin 1600000) (j : Fin 5), i = ix2 e j := ⟨i 0, i 1, eq_ix2 i⟩
  rw [Cert.Bridge.R.res_apply, a0, a1, a2, a3, a4, a5, a6, a7, a8, a9, a10]
  exact (Cert.Bridge.outK_apply _ _ _ _ _ _ _ _ _ _ _ e j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
